-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  main_v8
-- ==== Kernel.lean ====
abbrev S16x3x512x512 : Shape := ⟨4, ![16, 3, 512, 512]⟩
abbrev S16x128 : Shape := ⟨2, ![16, 128]⟩
abbrev S1x3x512x512 : Shape := ⟨4, ![1, 3, 512, 512]⟩
abbrev S8x128 : Shape := ⟨2, ![8, 128]⟩
abbrev S512x640 : Shape := ⟨2, ![512, 640]⟩
abbrev S552x512 : Shape := ⟨2, ![552, 512]⟩
abbrev S3x512x512 : Shape := ⟨3, ![3, 512, 512]⟩
abbrev S512x512 : Shape := ⟨2, ![512, 512]⟩
abbrev S512x17 : Shape := ⟨2, ![512, 17]⟩
abbrev S17x512 : Shape := ⟨2, ![17, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x128 : Shape := ⟨2, ![1, 128]⟩
abbrev S16x1 : Shape := ⟨2, ![16, 1]⟩
abbrev S16 : Shape := ⟨1, ![16]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x128, .f32⟩
  | .hbm, ⟨3, _⟩ => ⟨S16x1, .f32⟩
  | .hbm, ⟨4, _⟩ => ⟨S16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S8x128, .f32⟩
  | .local _ .vmem, ⟨5, _⟩ => ⟨S8x128, .f32⟩
  | .local _ .vmem, ⟨6, _⟩ => ⟨S512x640, .f32⟩
  | .local _ .vmem, ⟨7, _⟩ => ⟨S552x512, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  reduces_S3x512x512_S512x512 : S3x512x512.Reduces [0] S512x512
  inb_S512x640_S512x17_0_0 : ∀ a, (![0, 0] : Fin 2 → Nat) a + S512x17.size a ≤ S512x640.size a
  h_S512x17 : 0 < S512x17.numel
  shapeCasts_S512x17_S512x17 : S512x17.ShapeCasts S512x17
  inb_S512x640_S512x17_0_529 : ∀ a, (![0, 529] : Fin 2 → Nat) a + S512x17.size a ≤ S512x640.size a
  inb_S512x640_S512x512_0_17 : ∀ a, (![0, 17] : Fin 2 → Nat) a + S512x512.size a ≤ S512x640.size a
  h_S512x512 : 0 < S512x512.numel
  shapeCasts_S512x512_S512x512 : S512x512.ShapeCasts S512x512
  inb_S512x640_S512x512_0_0 : ∀ a, (![0, 0] : Fin 2 → Nat) a + S512x512.size a ≤ S512x640.size a
  inb_S512x640_S512x512_0_1 : ∀ a, (![0, 1] : Fin 2 → Nat) a + S512x512.size a ≤ S512x640.size a
  inb_S512x640_S512x512_0_2 : ∀ a, (![0, 2] : Fin 2 → Nat) a + S512x512.size a ≤ S512x640.size a
  inb_S512x640_S512x512_0_3 : ∀ a, (![0, 3] : Fin 2 → Nat) a + S512x512.size a ≤ S512x640.size a
  inb_S512x640_S512x512_0_4 : ∀ a, (![0, 4] : Fin 2 → Nat) a + S512x512.size a ≤ S512x640.size a
  inb_S512x640_S512x512_0_5 : ∀ a, (![0, 5] : Fin 2 → Nat) a + S512x512.size a ≤ S512x640.size a
  inb_S512x640_S512x512_0_6 : ∀ a, (![0, 6] : Fin 2 → Nat) a + S512x512.size a ≤ S512x640.size a
  inb_S512x640_S512x512_0_7 : ∀ a, (![0, 7] : Fin 2 → Nat) a + S512x512.size a ≤ S512x640.size a
  inb_S512x640_S512x512_0_8 : ∀ a, (![0, 8] : Fin 2 → Nat) a + S512x512.size a ≤ S512x640.size a
  inb_S512x640_S512x512_0_9 : ∀ a, (![0, 9] : Fin 2 → Nat) a + S512x512.size a ≤ S512x640.size a
  inb_S512x640_S512x512_0_10 : ∀ a, (![0, 10] : Fin 2 → Nat) a + S512x512.size a ≤ S512x640.size a
  inb_S512x640_S512x512_0_11 : ∀ a, (![0, 11] : Fin 2 → Nat) a + S512x512.size a ≤ S512x640.size a
  inb_S512x640_S512x512_0_12 : ∀ a, (![0, 12] : Fin 2 → Nat) a + S512x512.size a ≤ S512x640.size a
  inb_S512x640_S512x512_0_13 : ∀ a, (![0, 13] : Fin 2 → Nat) a + S512x512.size a ≤ S512x640.size a
  inb_S512x640_S512x512_0_14 : ∀ a, (![0, 14] : Fin 2 → Nat) a + S512x512.size a ≤ S512x640.size a
  inb_S512x640_S512x512_0_15 : ∀ a, (![0, 15] : Fin 2 → Nat) a + S512x512.size a ≤ S512x640.size a
  inb_S512x640_S512x512_0_16 : ∀ a, (![0, 16] : Fin 2 → Nat) a + S512x512.size a ≤ S512x640.size a
  inb_S512x640_S512x512_0_18 : ∀ a, (![0, 18] : Fin 2 → Nat) a + S512x512.size a ≤ S512x640.size a
  inb_S512x640_S512x512_0_19 : ∀ a, (![0, 19] : Fin 2 → Nat) a + S512x512.size a ≤ S512x640.size a
  inb_S512x640_S512x512_0_20 : ∀ a, (![0, 20] : Fin 2 → Nat) a + S512x512.size a ≤ S512x640.size a
  inb_S512x640_S512x512_0_21 : ∀ a, (![0, 21] : Fin 2 → Nat) a + S512x512.size a ≤ S512x640.size a
  inb_S512x640_S512x512_0_22 : ∀ a, (![0, 22] : Fin 2 → Nat) a + S512x512.size a ≤ S512x640.size a
  inb_S512x640_S512x512_0_23 : ∀ a, (![0, 23] : Fin 2 → Nat) a + S512x512.size a ≤ S512x640.size a
  inb_S512x640_S512x512_0_24 : ∀ a, (![0, 24] : Fin 2 → Nat) a + S512x512.size a ≤ S512x640.size a
  inb_S512x640_S512x512_0_25 : ∀ a, (![0, 25] : Fin 2 → Nat) a + S512x512.size a ≤ S512x640.size a
  inb_S512x640_S512x512_0_26 : ∀ a, (![0, 26] : Fin 2 → Nat) a + S512x512.size a ≤ S512x640.size a
  inb_S512x640_S512x512_0_27 : ∀ a, (![0, 27] : Fin 2 → Nat) a + S512x512.size a ≤ S512x640.size a
  inb_S512x640_S512x512_0_28 : ∀ a, (![0, 28] : Fin 2 → Nat) a + S512x512.size a ≤ S512x640.size a
  inb_S512x640_S512x512_0_29 : ∀ a, (![0, 29] : Fin 2 → Nat) a + S512x512.size a ≤ S512x640.size a
  inb_S512x640_S512x512_0_30 : ∀ a, (![0, 30] : Fin 2 → Nat) a + S512x512.size a ≤ S512x640.size a
  inb_S512x640_S512x512_0_31 : ∀ a, (![0, 31] : Fin 2 → Nat) a + S512x512.size a ≤ S512x640.size a
  inb_S512x640_S512x512_0_32 : ∀ a, (![0, 32] : Fin 2 → Nat) a + S512x512.size a ≤ S512x640.size a
  inb_S512x640_S512x512_0_33 : ∀ a, (![0, 33] : Fin 2 → Nat) a + S512x512.size a ≤ S512x640.size a
  inb_S512x640_S512x512_0_34 : ∀ a, (![0, 34] : Fin 2 → Nat) a + S512x512.size a ≤ S512x640.size a
  inb_S552x512_S17x512_0_0 : ∀ a, (![0, 0] : Fin 2 → Nat) a + S17x512.size a ≤ S552x512.size a
  h_S17x512 : 0 < S17x512.numel
  shapeCasts_S17x512_S17x512 : S17x512.ShapeCasts S17x512
  inb_S552x512_S17x512_529_0 : ∀ a, (![529, 0] : Fin 2 → Nat) a + S17x512.size a ≤ S552x512.size a
  inb_S552x512_S512x512_17_0 : ∀ a, (![17, 0] : Fin 2 → Nat) a + S512x512.size a ≤ S552x512.size a
  inb_S552x512_S512x512_0_0 : ∀ a, (![0, 0] : Fin 2 → Nat) a + S512x512.size a ≤ S552x512.size a
  inb_S552x512_S512x512_1_0 : ∀ a, (![1, 0] : Fin 2 → Nat) a + S512x512.size a ≤ S552x512.size a
  inb_S552x512_S512x512_2_0 : ∀ a, (![2, 0] : Fin 2 → Nat) a + S512x512.size a ≤ S552x512.size a
  inb_S552x512_S512x512_3_0 : ∀ a, (![3, 0] : Fin 2 → Nat) a + S512x512.size a ≤ S552x512.size a
  inb_S552x512_S512x512_4_0 : ∀ a, (![4, 0] : Fin 2 → Nat) a + S512x512.size a ≤ S552x512.size a
  inb_S552x512_S512x512_5_0 : ∀ a, (![5, 0] : Fin 2 → Nat) a + S512x512.size a ≤ S552x512.size a
  inb_S552x512_S512x512_6_0 : ∀ a, (![6, 0] : Fin 2 → Nat) a + S512x512.size a ≤ S552x512.size a
  inb_S552x512_S512x512_7_0 : ∀ a, (![7, 0] : Fin 2 → Nat) a + S512x512.size a ≤ S552x512.size a
  inb_S552x512_S512x512_8_0 : ∀ a, (![8, 0] : Fin 2 → Nat) a + S512x512.size a ≤ S552x512.size a
  inb_S552x512_S512x512_9_0 : ∀ a, (![9, 0] : Fin 2 → Nat) a + S512x512.size a ≤ S552x512.size a
  inb_S552x512_S512x512_10_0 : ∀ a, (![10, 0] : Fin 2 → Nat) a + S512x512.size a ≤ S552x512.size a
  inb_S552x512_S512x512_11_0 : ∀ a, (![11, 0] : Fin 2 → Nat) a + S512x512.size a ≤ S552x512.size a
  inb_S552x512_S512x512_12_0 : ∀ a, (![12, 0] : Fin 2 → Nat) a + S512x512.size a ≤ S552x512.size a
  inb_S552x512_S512x512_13_0 : ∀ a, (![13, 0] : Fin 2 → Nat) a + S512x512.size a ≤ S552x512.size a
  inb_S552x512_S512x512_14_0 : ∀ a, (![14, 0] : Fin 2 → Nat) a + S512x512.size a ≤ S552x512.size a
  inb_S552x512_S512x512_15_0 : ∀ a, (![15, 0] : Fin 2 → Nat) a + S512x512.size a ≤ S552x512.size a
  inb_S552x512_S512x512_16_0 : ∀ a, (![16, 0] : Fin 2 → Nat) a + S512x512.size a ≤ S552x512.size a
  inb_S552x512_S512x512_18_0 : ∀ a, (![18, 0] : Fin 2 → Nat) a + S512x512.size a ≤ S552x512.size a
  inb_S552x512_S512x512_19_0 : ∀ a, (![19, 0] : Fin 2 → Nat) a + S512x512.size a ≤ S552x512.size a
  inb_S552x512_S512x512_20_0 : ∀ a, (![20, 0] : Fin 2 → Nat) a + S512x512.size a ≤ S552x512.size a
  inb_S552x512_S512x512_21_0 : ∀ a, (![21, 0] : Fin 2 → Nat) a + S512x512.size a ≤ S552x512.size a
  inb_S552x512_S512x512_22_0 : ∀ a, (![22, 0] : Fin 2 → Nat) a + S512x512.size a ≤ S552x512.size a
  inb_S552x512_S512x512_23_0 : ∀ a, (![23, 0] : Fin 2 → Nat) a + S512x512.size a ≤ S552x512.size a
  inb_S552x512_S512x512_24_0 : ∀ a, (![24, 0] : Fin 2 → Nat) a + S512x512.size a ≤ S552x512.size a
  inb_S552x512_S512x512_25_0 : ∀ a, (![25, 0] : Fin 2 → Nat) a + S512x512.size a ≤ S552x512.size a
  inb_S552x512_S512x512_26_0 : ∀ a, (![26, 0] : Fin 2 → Nat) a + S512x512.size a ≤ S552x512.size a
  inb_S552x512_S512x512_27_0 : ∀ a, (![27, 0] : Fin 2 → Nat) a + S512x512.size a ≤ S552x512.size a
  inb_S552x512_S512x512_28_0 : ∀ a, (![28, 0] : Fin 2 → Nat) a + S512x512.size a ≤ S552x512.size a
  inb_S552x512_S512x512_29_0 : ∀ a, (![29, 0] : Fin 2 → Nat) a + S512x512.size a ≤ S552x512.size a
  inb_S552x512_S512x512_30_0 : ∀ a, (![30, 0] : Fin 2 → Nat) a + S512x512.size a ≤ S552x512.size a
  inb_S552x512_S512x512_31_0 : ∀ a, (![31, 0] : Fin 2 → Nat) a + S512x512.size a ≤ S552x512.size a
  inb_S552x512_S512x512_32_0 : ∀ a, (![32, 0] : Fin 2 → Nat) a + S512x512.size a ≤ S552x512.size a
  inb_S552x512_S512x512_33_0 : ∀ a, (![33, 0] : Fin 2 → Nat) a + S512x512.size a ≤ S552x512.size a
  inb_S552x512_S512x512_34_0 : ∀ a, (![34, 0] : Fin 2 → Nat) a + S512x512.size a ≤ S552x512.size a
  reduces_S512x512_S512 : S512x512.Reduces [1] S512
  shapeCasts_S512_S512x1 : S512.ShapeCasts S512x1
  reduces_S512x1_S1 : S512x1.Reduces [0] S1
  shapeCasts_S1_S1x1 : S1.ShapeCasts S1x1
  inb_S8x128_S1x128_0_0 : ∀ a, (![0, 0] : Fin 2 → Nat) a + S1x128.size a ≤ S8x128.size a
  h_S1x128 : 0 < S1x128.numel
  shapeCasts_S1x128_S1x128 : S1x128.ShapeCasts S1x128
  shapeCasts_S1x1_S1x1 : S1x1.ShapeCasts S1x1
  broadcasts_S1x1_S1x128 : S1x1.Broadcasts S1x128
  slices_S16x128_S16x1_0_0 : S16x128.Slices ![0, 0] S16x1
  shapeCasts_S16x1_S16 : S16x1.ShapeCasts S16
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S16x3x512x512.size a
  hwx0_0 : ∀ i : grid0.Coords, EltTy.bits .f32 = 32 ∨ (Rect.block (s := S16x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S_ : Shape := ⟨0, ![]⟩
abbrev S16x512x512 : Shape := ⟨3, ![16, 512, 512]⟩

abbrev nBuf : Space → Nat
  | .hbm => 24
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S_, .f32⟩
  | .hbm, ⟨3, _⟩ => ⟨S16x512x512, .f32⟩
  | .hbm, ⟨4, _⟩ => ⟨S_, .f32⟩
  | .hbm, ⟨5, _⟩ => ⟨S_, .f32⟩
  | .hbm, ⟨6, _⟩ => ⟨S16x512x512, .f32⟩
  | .hbm, ⟨7, _⟩ => ⟨S_, .f32⟩
  | .hbm, ⟨8, _⟩ => ⟨S16x512x512, .f32⟩
  | .hbm, ⟨9, _⟩ => ⟨S_, .f32⟩
  | .hbm, ⟨10, _⟩ => ⟨S_, .f32⟩
  | .hbm, ⟨11, _⟩ => ⟨S16x512x512, .f32⟩
  | .hbm, ⟨12, _⟩ => ⟨S16x512x512, .f32⟩
  | .hbm, ⟨13, _⟩ => ⟨S16x512x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  reducesTo_S16x3x512x512_S16x512x512_d1 : S16x3x512x512.ReducesTo [1] S16x512x512
  h_S_ : 0 < S_.numel
  bcast_S_S_ : S_.BroadcastsInDim S_ (![] : Fin 0 → Fin S_.rank)
  reduceWindows_S16x512x512_S16x512x512_w1s1p0_0_w35s1p17_17_w35s1p17_17 : S16x512x512.ReduceWindows (![1, 35, 35] : Fin 3 → Nat) ![1, 1, 1] ![0, 17, 17] ![0, 17, 17] S16x512x512
  reducesTo_S16x512x512_S_d0_1_2 : S16x512x512.ReducesTo [0, 1, 2] S_

variable [Facts₀]

class Facts : Prop extends Facts₀ where

variable [Facts]
-- ==== Proof.Spec.lean ====
/-
  The common value of the two programs, stated once over the argument arrays.

  For an array `A` of shape [16, 3, 512, 512] and a batch `b`, the image `chanMin (slab A b)` holds at each pixel the
  smallest of the three channels. `pooled x h w` is the largest entry of `x` in the 35 × 35 window centred at (h, w),
  the image being framed by −∞ (`padded`): with `h + dv` and `w + dh` running over the window's 35 rows and columns
  of the framed image, whose pixel (r, c) is `x (r − 17, c − 17)` inside the frame and −∞ in it. `total A B` adds
  |pooled − pooled| over every batch and pixel, and `result` is the logistic function of that sum divided by 2²².
-/
import Idealize.ShloMosaic.PureOps.Ideal
import Idealize.ShloMosaic.Lib.ValueIdx

noncomputable section

namespace Cert.Pool

open Idealize.ShloMosaic Idealize.ShloMosaic.ValueIdx

/-- A [512, 512] image read at natural coordinates: −∞ outside the image. -/
def img2 (x : (⟨2, ![512, 512]⟩ : Shape).Idx → EReal) (r c : ℕ) : EReal :=
  if h : r < 512 ∧ c < 512 then x (ix2 ⟨r, h.1⟩ ⟨c, h.2⟩) else ⊥

/-- The image framed by 17 rows and columns of −∞ on every side: pixel (r, c) of the framed image. -/
def padded (x : (⟨2, ![512, 512]⟩ : Shape).Idx → EReal) (r c : ℕ) : EReal :=
  if 17 ≤ r ∧ 17 ≤ c then img2 x (r - 17) (c - 17) else ⊥

/-- The largest entry of the framed image in the 35 × 35 window whose top-left corner is (h, w) — the window of the
    unframed image centred at (h, w). -/
def pooled (x : (⟨2, ![512, 512]⟩ : Shape).Idx → EReal) (h w : ℕ) : EReal :=
  (Finset.range 35).sup fun dv => (Finset.range 35).sup fun dh => padded x (h + dv) (w + dh)

/-- Batch `b` of a [16, 3, 512, 512] array. -/
def slab (A : (⟨4, ![16, 3, 512, 512]⟩ : Shape).Idx → EReal) (b : Fin 16) : (⟨3, ![3, 512, 512]⟩ : Shape).Idx → EReal :=
  fun i => A (ix4 b (i 0) (i 1) (i 2))

/-- The smallest of the three channels at each pixel (a minimum started from +∞). -/
def chanMin (X : (⟨3, ![3, 512, 512]⟩ : Shape).Idx → EReal) : (⟨2, ![512, 512]⟩ : Shape).Idx → EReal :=
  fun j => (Finset.univ : Finset (Fin 3)).fold min (Ideal.ofBits .f32 0x7F800000#32) fun ch => X (ix3 ch (j 0) (j 1))

/-- |pooled X − pooled Y| at pixel (h, w) of two [3, 512, 512] images; the absolute value as the larger of a number and
    its negative. -/
def pixDiff (X Y : (⟨3, ![3, 512, 512]⟩ : Shape).Idx → EReal) (h w : Fin 512) : EReal :=
  max (pooled (chanMin X) h.val w.val - pooled (chanMin Y) h.val w.val)
    (-(pooled (chanMin X) h.val w.val - pooled (chanMin Y) h.val w.val))

/-- The sum of the absolute differences over one pair of images, -/
def imgTotal (X Y : (⟨3, ![3, 512, 512]⟩ : Shape).Idx → EReal) : EReal :=
  ∑ h : Fin 512, ∑ w : Fin 512, pixDiff X Y h w

/-- over batch `b` of two arrays, -/
def batchTotal (A B : (⟨4, ![16, 3, 512, 512]⟩ : Shape).Idx → EReal) (b : Fin 16) : EReal :=
  imgTotal (slab A b) (slab B b)

/-- and over all sixteen batches. -/
def total (A B : (⟨4, ![16, 3, 512, 512]⟩ : Shape).Idx → EReal) : EReal :=
  ∑ b : Fin 16, batchTotal A B b

/-- Batch totals at a natural number (zero past the last batch), -/
def batchTotalN (A B : (⟨4, ![16, 3, 512, 512]⟩ : Shape).Idx → EReal) (b : ℕ) : EReal :=
  if h : b < 16 then batchTotal A B ⟨b, h⟩ else 0

/-- and the running sum a group of eight consecutive batches has reached after batch `n`: the batches of `n`'s group
    (those from `8 * (n / 8)`) up to and including `n`. -/
def rowAcc (A B : (⟨4, ![16, 3, 512, 512]⟩ : Shape).Idx → EReal) (n : ℕ) : EReal :=
  ∑ s ∈ Finset.range (n % 8 + 1), batchTotalN A B (8 * (n / 8) + s)

/-- The [16, 128] array of group sums: row `8 g` holds, in every lane, the sum of group `g`'s eight batch totals; the
    other rows hold zero. -/
def groupSums (A B : (⟨4, ![16, 3, 512, 512]⟩ : Shape).Idx → EReal) : (⟨2, ![16, 128]⟩ : Shape).Idx → EReal :=
  fun i => if (i 0).val % 8 = 0 then rowAcc A B ((i 0).val + 7) else 0

/-- The closing scalar operations, the same in both programs: 1 / (1 + exp (−(T / 2²²))). -/
def logisticOfMean (T : FVec Ideal (⟨0, ![]⟩ : Shape) .f32) : FVec Ideal (⟨0, ![]⟩ : Shape) .f32 :=
  Host.divf (constant (F := Ideal) (⟨0, ![]⟩ : Shape) .f32 0x3F800000#32)
    (addf (constant (F := Ideal) (⟨0, ![]⟩ : Shape) .f32 0x3F800000#32)
      (Host.exp (Host.negf (Host.divf T (constant (F := Ideal) (⟨0, ![]⟩ : Shape) .f32 0x4A800000#32)))))

/-- The one number both programs return. -/
def result (A B : (⟨4, ![16, 3, 512, 512]⟩ : Shape).Idx → EReal) : FVec Ideal (⟨0, ![]⟩ : Shape) .f32 :=
  logisticOfMean fun _ => total A B

end Cert.Pool

end
-- ==== Proof.Framed.lean ====
/-
  Reading the two scratch images after they are filled.

  The horizontal scratch is a [512, 640] buffer filled by three stores: the image in columns 17 … 528 and −∞ in columns
  0 … 16 and 529 … 545. A load of the 512 columns from column `o` (o ≤ 34) therefore reads, at (r, c), the image framed
  by −∞ at column c + o: the image at column c + o − 17 when that is a column of the image, −∞ otherwise. The vertical
  scratch is a [552, 512] buffer filled the same way along its rows. Older stores underneath the three do not matter:
  the three cover every entry read.
-/
import proofs.«163365_j18872086298967_1_alg».proof.Proof.Spec
import Idealize.ShloMosaic.Lib.WritesUnit
import Idealize.ShloMosaic.Lib.Exec.Geometry

noncomputable section

namespace Cert.Framed

open Idealize.ShloMosaic Idealize.ShloMosaic.ValueIdx

/-- Row `r` of the image framed on its left and right by 17 columns of −∞, at column `c` of the framed row. -/
def rowFramed (x : (⟨2, ![512, 512]⟩ : Shape).Idx → EReal) (r c : ℕ) : EReal :=
  if 17 ≤ c then Cert.Pool.img2 x r (c - 17) else ⊥

/-- Column `c` of the image framed above and below by 17 rows of −∞, at row `r` of the framed column. -/
def colFramed (x : (⟨2, ![512, 512]⟩ : Shape).Idx → EReal) (r c : ℕ) : EReal :=
  if 17 ≤ r then Cert.Pool.img2 x (r - 17) c else ⊥

section
variable {sig : RefSig} {κ : Kind} {sp : Space}

/-- A load of 512 columns from column `o` of the filled horizontal scratch reads the framed rows from column `o`. -/
theorem readCov_rowFramed (v : View sig κ sp (⟨2, ![512, 640]⟩ : Shape) EltTy.f32)
    (x : (⟨2, ![512, 512]⟩ : Shape).Idx → EReal) (nR nL : (⟨2, ![512, 17]⟩ : Shape).Idx → EReal)
    (hR : ∀ k, nR k = ⊥) (hL : ∀ k, nL k = ⊥)
    (L' : List (View.Piece (Elt Ideal) (⟨2, ![512, 640]⟩ : Shape) EltTy.f32))
    (inbX : ∀ a, (![0, 17] : Fin 2 → ℕ) a + (![512, 512] : Fin 2 → ℕ) a ≤ (⟨2, ![512, 640]⟩ : Shape).size a)
    (inbR : ∀ a, (![0, 529] : Fin 2 → ℕ) a + (![512, 17] : Fin 2 → ℕ) a ≤ (⟨2, ![512, 640]⟩ : Shape).size a)
    (inbL : ∀ a, (![0, 0] : Fin 2 → ℕ) a + (![512, 17] : Fin 2 → ℕ) a ≤ (⟨2, ![512, 640]⟩ : Shape).size a)
    (o : ℕ) (ho : o ≤ 34)
    (inb : ∀ a, (![0, o] : Fin 2 → ℕ) a + (![512, 512] : Fin 2 → ℕ) a ≤ (⟨2, ![512, 640]⟩ : Shape).size a)
    (j : (⟨2, ![512, 512]⟩ : Shape).Idx) :
    v.readCov ((⟨Rect.unit (s := ⟨2, ![512, 640]⟩) ![0, 17] ![512, 512] inbX, x⟩ : View.Piece (Elt Ideal) _ EltTy.f32)
        :: ⟨Rect.unit (s := ⟨2, ![512, 640]⟩) ![0, 529] ![512, 17] inbR, nR⟩ :: ⟨Rect.unit (s := ⟨2, ![512, 640]⟩) ![0, 0] ![512, 17] inbL, nL⟩ :: L')
      (Rect.unit (s := ⟨2, ![512, 640]⟩) ![0, o] ![512, 512] inb).toLoadRect j = rowFramed x (j 0).val ((j 1).val + o) := by
  show v.read (Elt Ideal) (v.writes (Elt Ideal) v.junk _) ((Rect.unit (s := ⟨2, ![512, 640]⟩) ![0, o] ![512, 512] inb).toLoadRect.idx j) = _
  generalize hy : (Rect.unit (s := ⟨2, ![512, 640]⟩) ![0, o] ![512, 512] inb).toLoadRect.idx j = y
  have hy0 : (y 0).val = (j 0).val := by subst hy; show 0 + 1 * (j 0).val = _; omega
  have hy1 : (y 1).val = o + (j 1).val := by subst hy; show o + 1 * (j 1).val = _; omega
  have hj0 : (j 0).val < 512 := (j 0).isLt
  have hj1 : (j 1).val < 512 := (j 1).isLt
  unfold rowFramed
  by_cases h17 : 17 ≤ (j 1).val + o
  · rw [if_pos h17]
    by_cases h529 : (j 1).val + o < 529
    · have hlt : (j 1).val + o - 17 < 512 := by omega
      rw [View.read_writes_cons_unit_of_mem (Val := Elt Ideal) v _ inbX x _ y (ix2 (j 0) ⟨(j 1).val + o - 17, hlt⟩) rfl
        (Fin.forall_fin_two.mpr ⟨by show (y 0).val = 0 + (j 0).val; omega,
          by show (y 1).val = 17 + ((j 1).val + o - 17); omega⟩)]
      unfold Cert.Pool.img2
      rw [dif_pos ⟨hj0, hlt⟩]
      rfl
    · rw [View.read_writes_cons_unit_of_not_mem (Val := Elt Ideal) v _ inbX x _ y rfl 1 (Or.inr (by show 17 + 512 ≤ (y 1).val; omega))]
      rw [View.read_writes_cons_unit_of_mem (Val := Elt Ideal) v _ inbR nR _ y (ix2 (j 0) ⟨(j 1).val + o - 529, by omega⟩) rfl
        (Fin.forall_fin_two.mpr ⟨by show (y 0).val = 0 + (j 0).val; omega,
          by show (y 1).val = 529 + ((j 1).val + o - 529); omega⟩)]
      rw [hR]
      unfold Cert.Pool.img2
      rw [dif_neg (by omega)]
  · rw [if_neg h17]
    rw [View.read_writes_cons_unit_of_not_mem (Val := Elt Ideal) v _ inbX x _ y rfl 1 (Or.inl (by show (y 1).val < 17; omega))]
    rw [View.read_writes_cons_unit_of_not_mem (Val := Elt Ideal) v _ inbR nR _ y rfl 1 (Or.inl (by show (y 1).val < 529; omega))]
    rw [View.read_writes_cons_unit_of_mem (Val := Elt Ideal) v _ inbL nL _ y (ix2 (j 0) ⟨(j 1).val + o, by omega⟩) rfl
      (Fin.forall_fin_two.mpr ⟨by show (y 0).val = 0 + (j 0).val; omega,
        by show (y 1).val = 0 + ((j 1).val + o); omega⟩)]
    rw [hL]

/-- A load of 512 rows from row `o` of the filled vertical scratch reads the framed columns from row `o`. -/
theorem readCov_colFramed (v : View sig κ sp (⟨2, ![552, 512]⟩ : Shape) EltTy.f32)
    (x : (⟨2, ![512, 512]⟩ : Shape).Idx → EReal) (nB nT : (⟨2, ![17, 512]⟩ : Shape).Idx → EReal)
    (hB : ∀ k, nB k = ⊥) (hT : ∀ k, nT k = ⊥)
    (L' : List (View.Piece (Elt Ideal) (⟨2, ![552, 512]⟩ : Shape) EltTy.f32))
    (inbX : ∀ a, (![17, 0] : Fin 2 → ℕ) a + (![512, 512] : Fin 2 → ℕ) a ≤ (⟨2, ![552, 512]⟩ : Shape).size a)
    (inbB : ∀ a, (![529, 0] : Fin 2 → ℕ) a + (![17, 512] : Fin 2 → ℕ) a ≤ (⟨2, ![552, 512]⟩ : Shape).size a)
    (inbT : ∀ a, (![0, 0] : Fin 2 → ℕ) a + (![17, 512] : Fin 2 → ℕ) a ≤ (⟨2, ![552, 512]⟩ : Shape).size a)
    (o : ℕ) (ho : o ≤ 34)
    (inb : ∀ a, (![o, 0] : Fin 2 → ℕ) a + (![512, 512] : Fin 2 → ℕ) a ≤ (⟨2, ![552, 512]⟩ : Shape).size a)
    (j : (⟨2, ![512, 512]⟩ : Shape).Idx) :
    v.readCov ((⟨Rect.unit (s := ⟨2, ![552, 512]⟩) ![17, 0] ![512, 512] inbX, x⟩ : View.Piece (Elt Ideal) _ EltTy.f32)
        :: ⟨Rect.unit (s := ⟨2, ![552, 512]⟩) ![529, 0] ![17, 512] inbB, nB⟩
        :: ⟨Rect.unit (s := ⟨2, ![552, 512]⟩) ![0, 0] ![17, 512] inbT, nT⟩ :: L')
      (Rect.unit (s := ⟨2, ![552, 512]⟩) ![o, 0] ![512, 512] inb).toLoadRect j
      = colFramed x ((j 0).val + o) (j 1).val := by
  show v.read (Elt Ideal) (v.writes (Elt Ideal) v.junk _)
    ((Rect.unit (s := ⟨2, ![552, 512]⟩) ![o, 0] ![512, 512] inb).toLoadRect.idx j) = _
  generalize hy : (Rect.unit (s := ⟨2, ![552, 512]⟩) ![o, 0] ![512, 512] inb).toLoadRect.idx j = y
  have hy0 : (y 0).val = o + (j 0).val := by subst hy; show o + 1 * (j 0).val = _; omega
  have hy1 : (y 1).val = (j 1).val := by subst hy; show 0 + 1 * (j 1).val = _; omega
  have hj0 : (j 0).val < 512 := (j 0).isLt
  have hj1 : (j 1).val < 512 := (j 1).isLt
  unfold colFramed
  by_cases h17 : 17 ≤ (j 0).val + o
  · rw [if_pos h17]
    by_cases h529 : (j 0).val + o < 529
    · have hlt : (j 0).val + o - 17 < 512 := by omega
      rw [View.read_writes_cons_unit_of_mem (Val := Elt Ideal) v _ inbX x _ y (ix2 ⟨(j 0).val + o - 17, hlt⟩ (j 1)) rfl
        (Fin.forall_fin_two.mpr ⟨by show (y 0).val = 17 + ((j 0).val + o - 17); omega,
          by show (y 1).val = 0 + (j 1).val; omega⟩)]
      unfold Cert.Pool.img2
      rw [dif_pos ⟨hlt, hj1⟩]
      rfl
    · rw [View.read_writes_cons_unit_of_not_mem (Val := Elt Ideal) v _ inbX x _ y rfl 0
        (Or.inr (by show 17 + 512 ≤ (y 0).val; omega))]
      rw [View.read_writes_cons_unit_of_mem (Val := Elt Ideal) v _ inbB nB _ y (ix2 ⟨(j 0).val + o - 529, by omega⟩ (j 1)) rfl
        (Fin.forall_fin_two.mpr ⟨by show (y 0).val = 529 + ((j 0).val + o - 529); omega,
          by show (y 1).val = 0 + (j 1).val; omega⟩)]
      rw [hB]
      unfold Cert.Pool.img2
      rw [dif_neg (by omega)]
  · rw [if_neg h17]
    rw [View.read_writes_cons_unit_of_not_mem (Val := Elt Ideal) v _ inbX x _ y rfl 0
      (Or.inl (by show (y 0).val < 17; omega))]
    rw [View.read_writes_cons_unit_of_not_mem (Val := Elt Ideal) v _ inbB nB _ y rfl 0
      (Or.inl (by show (y 0).val < 529; omega))]
    rw [View.read_writes_cons_unit_of_mem (Val := Elt Ideal) v _ inbT nT _ y (ix2 ⟨(j 0).val + o, by omega⟩ (j 1)) rfl
      (Fin.forall_fin_two.mpr ⟨by show (y 0).val = 0 + ((j 0).val + o); omega,
        by show (y 1).val = 0 + (j 1).val; omega⟩)]
    rw [hT]

end

end Cert.Framed

end
-- ==== Proof.LibMaxChain.lean ====
/-
  A left-nested chain of maxima  max (… (max (max (f 0) (f 1)) (f 2)) …) (f n)  is the supremum of f over 0, …, n:
  in a linear order with a least element the order of taking maxima does not matter.
-/
import Mathlib.Data.Finset.Lattice.Fold
import Mathlib.Data.Finset.Range

namespace Cert.MaxChain

/-- max (… (max (f 0) (f 1)) …) (f n), nested to the left. -/
def chainMax {α : Type*} [Max α] (f : ℕ → α) : ℕ → α
  | 0 => f 0
  | n + 1 => max (chainMax f n) (f (n + 1))

/-- The chain is the supremum over the first n + 1 naturals. -/
theorem chainMax_eq_sup {α : Type*} [LinearOrder α] [OrderBot α] (f : ℕ → α) :
    ∀ n, chainMax f n = (Finset.range (n + 1)).sup f
  | 0 => by simp [chainMax]
  | n + 1 => by
    rw [chainMax, chainMax_eq_sup f n, Finset.range_add_one (n := n + 1), Finset.sup_insert, sup_comm]

/-- A supremum taken only where a condition holds, −∞ elsewhere, is the supremum of the guarded terms. -/
theorem ite_sup {α : Type*} [LinearOrder α] [OrderBot α] (p : Prop) [Decidable p] (s : Finset ℕ) (f : ℕ → α) :
    (if p then s.sup f else ⊥) = s.sup fun k => if p then f k else ⊥ := by
  by_cases h : p
  · simp [h]
  · simp [h]

end Cert.MaxChain
-- ==== Proof.Passes.lean ====
/-
  The separable window maximum.

  The kernel takes the 35 × 35 maximum in two passes: along each row, the maximum of 35 consecutive entries of the row
  framed by −∞ (`hpoolImg`), then along each column of that result, the maximum of 35 consecutive entries of the column
  framed by −∞ (`vpoolImg`). Each pass is written in the program as a chain of 34 binary maxima, which is the supremum
  over the 35 offsets; and the column pass of the row pass is the supremum over the whole 35 × 35 window of the image
  framed on all four sides, because a maximum of maxima is the maximum over the pairs, and −∞ is the least element:
  a row of the column frame contributes −∞ whichever column is taken.
-/
import proofs.«163365_j18872086298967_1_alg».proof.Proof.Framed
import proofs.«163365_j18872086298967_1_alg».proof.Proof.LibMaxChain

set_option maxRecDepth 4096

noncomputable section

namespace Cert.Framed

open Idealize.ShloMosaic Idealize.ShloMosaic.ValueIdx Cert.MaxChain

/-- The row pass: at (r, c), the largest of the 35 entries of row r, framed, from column c. -/
def hpoolImg (X : (⟨2, ![512, 512]⟩ : Shape).Idx → EReal) : (⟨2, ![512, 512]⟩ : Shape).Idx → EReal :=
  fun j => (Finset.range 35).sup fun dh => rowFramed X (j 0).val ((j 1).val + dh)

/-- The column pass: at (r, c), the largest of the 35 entries of column c, framed, from row r. -/
def vpoolImg (Y : (⟨2, ![512, 512]⟩ : Shape).Idx → EReal) : (⟨2, ![512, 512]⟩ : Shape).Idx → EReal :=
  fun j => (Finset.range 35).sup fun dv => colFramed Y ((j 0).val + dv) (j 1).val

/-- The program's chain of 34 maxima over the row loads is the row pass. -/
theorem hchain_fun (X : (⟨2, ![512, 512]⟩ : Shape).Idx → EReal) :
    (fun j : (⟨2, ![512, 512]⟩ : Shape).Idx => max (max (max (max (max (max (max (max (max (max (max (max (max (max (max (max (max (max (max (max (max (max (max (max (max (max (max (max (max (max (max (max (max (max (rowFramed X (j 0).val ((j 1).val + 0)) (rowFramed X (j 0).val ((j 1).val + 1))) (rowFramed X (j 0).val ((j 1).val + 2))) (rowFramed X (j 0).val ((j 1).val + 3))) (rowFramed X (j 0).val ((j 1).val + 4))) (rowFramed X (j 0).val ((j 1).val + 5))) (rowFramed X (j 0).val ((j 1).val + 6))) (rowFramed X (j 0).val ((j 1).val + 7))) (rowFramed X (j 0).val ((j 1).val + 8))) (rowFramed X (j 0).val ((j 1).val + 9))) (rowFramed X (j 0).val ((j 1).val + 10))) (rowFramed X (j 0).val ((j 1).val + 11))) (rowFramed X (j 0).val ((j 1).val + 12))) (rowFramed X (j 0).val ((j 1).val + 13))) (rowFramed X (j 0).val ((j 1).val + 14))) (rowFramed X (j 0).val ((j 1).val + 15))) (rowFramed X (j 0).val ((j 1).val + 16))) (rowFramed X (j 0).val ((j 1).val + 17))) (rowFramed X (j 0).val ((j 1).val + 18))) (rowFramed X (j 0).val ((j 1).val + 19))) (rowFramed X (j 0).val ((j 1).val + 20))) (rowFramed X (j 0).val ((j 1).val + 21))) (rowFramed X (j 0).val ((j 1).val + 22))) (rowFramed X (j 0).val ((j 1).val + 23))) (rowFramed X (j 0).val ((j 1).val + 24))) (rowFramed X (j 0).val ((j 1).val + 25))) (rowFramed X (j 0).val ((j 1).val + 26))) (rowFramed X (j 0).val ((j 1).val + 27))) (rowFramed X (j 0).val ((j 1).val + 28))) (rowFramed X (j 0).val ((j 1).val + 29))) (rowFramed X (j 0).val ((j 1).val + 30))) (rowFramed X (j 0).val ((j 1).val + 31))) (rowFramed X (j 0).val ((j 1).val + 32))) (rowFramed X (j 0).val ((j 1).val + 33))) (rowFramed X (j 0).val ((j 1).val + 34)))
      = hpoolImg X :=
  funext fun j => chainMax_eq_sup (fun o => rowFramed X (j 0).val ((j 1).val + o)) 34

/-- The program's chain of 34 maxima over the column loads is the column pass. -/
theorem vchain_fun (Y : (⟨2, ![512, 512]⟩ : Shape).Idx → EReal) :
    (fun j : (⟨2, ![512, 512]⟩ : Shape).Idx => max (max (max (max (max (max (max (max (max (max (max (max (max (max (max (max (max (max (max (max (max (max (max (max (max (max (max (max (max (max (max (max (max (max (colFramed Y ((j 0).val + 0) (j 1).val) (colFramed Y ((j 0).val + 1) (j 1).val)) (colFramed Y ((j 0).val + 2) (j 1).val)) (colFramed Y ((j 0).val + 3) (j 1).val)) (colFramed Y ((j 0).val + 4) (j 1).val)) (colFramed Y ((j 0).val + 5) (j 1).val)) (colFramed Y ((j 0).val + 6) (j 1).val)) (colFramed Y ((j 0).val + 7) (j 1).val)) (colFramed Y ((j 0).val + 8) (j 1).val)) (colFramed Y ((j 0).val + 9) (j 1).val)) (colFramed Y ((j 0).val + 10) (j 1).val)) (colFramed Y ((j 0).val + 11) (j 1).val)) (colFramed Y ((j 0).val + 12) (j 1).val)) (colFramed Y ((j 0).val + 13) (j 1).val)) (colFramed Y ((j 0).val + 14) (j 1).val)) (colFramed Y ((j 0).val + 15) (j 1).val)) (colFramed Y ((j 0).val + 16) (j 1).val)) (colFramed Y ((j 0).val + 17) (j 1).val)) (colFramed Y ((j 0).val + 18) (j 1).val)) (colFramed Y ((j 0).val + 19) (j 1).val)) (colFramed Y ((j 0).val + 20) (j 1).val)) (colFramed Y ((j 0).val + 21) (j 1).val)) (colFramed Y ((j 0).val + 22) (j 1).val)) (colFramed Y ((j 0).val + 23) (j 1).val)) (colFramed Y ((j 0).val + 24) (j 1).val)) (colFramed Y ((j 0).val + 25) (j 1).val)) (colFramed Y ((j 0).val + 26) (j 1).val)) (colFramed Y ((j 0).val + 27) (j 1).val)) (colFramed Y ((j 0).val + 28) (j 1).val)) (colFramed Y ((j 0).val + 29) (j 1).val)) (colFramed Y ((j 0).val + 30) (j 1).val)) (colFramed Y ((j 0).val + 31) (j 1).val)) (colFramed Y ((j 0).val + 32) (j 1).val)) (colFramed Y ((j 0).val + 33) (j 1).val)) (colFramed Y ((j 0).val + 34) (j 1).val))
      = vpoolImg Y :=
  funext fun j => chainMax_eq_sup (fun o => colFramed Y ((j 0).val + o) (j 1).val) 34

/-- A supremum of terms that are all −∞ is −∞. -/
theorem sup_eq_bot_of_forall {s : Finset ℕ} {f : ℕ → EReal} (h : ∀ k ∈ s, f k = ⊥) : s.sup f = ⊥ :=
  (Finset.sup_congr rfl h).trans (Finset.sup_bot s)

/-- The column pass of the row pass is the window maximum of the image framed on all sides. -/
theorem vpool_hpool (X : (⟨2, ![512, 512]⟩ : Shape).Idx → EReal) :
    vpoolImg (hpoolImg X) = fun j => Cert.Pool.pooled X (j 0).val (j 1).val := by
  funext j
  have hw : (j 1).val < 512 := (j 1).isLt
  unfold vpoolImg Cert.Pool.pooled
  refine Finset.sup_congr rfl fun dv _ => ?_
  unfold colFramed
  by_cases hR : 17 ≤ (j 0).val + dv
  · rw [if_pos hR]
    by_cases hlt : (j 0).val + dv - 17 < 512
    · have e : Cert.Pool.img2 (hpoolImg X) ((j 0).val + dv - 17) (j 1).val
          = (Finset.range 35).sup fun dh => rowFramed X ((j 0).val + dv - 17) ((j 1).val + dh) := by
        unfold Cert.Pool.img2
        rw [dif_pos ⟨hlt, hw⟩]
        rfl
      rw [e]
      refine Finset.sup_congr rfl fun dh _ => ?_
      unfold rowFramed Cert.Pool.padded
      by_cases hc : 17 ≤ (j 1).val + dh
      · rw [if_pos hc, if_pos ⟨hR, hc⟩]
      · rw [if_neg hc, if_neg fun h => hc h.2]
    · have e : Cert.Pool.img2 (hpoolImg X) ((j 0).val + dv - 17) (j 1).val = ⊥ := by
        unfold Cert.Pool.img2
        rw [dif_neg fun h => hlt h.1]
      rw [e]
      refine (sup_eq_bot_of_forall fun dh _ => ?_).symm
      unfold Cert.Pool.padded
      by_cases hc : 17 ≤ (j 0).val + dv ∧ 17 ≤ (j 1).val + dh
      · rw [if_pos hc]
        unfold Cert.Pool.img2
        rw [dif_neg fun h => hlt h.1]
      · rw [if_neg hc]
  · rw [if_neg hR]
    refine (sup_eq_bot_of_forall fun dh _ => ?_).symm
    unfold Cert.Pool.padded
    rw [if_neg fun h => hR h.1]

end Cert.Framed

end
-- ==== Proof.Body.lean ====
/-
  What the kernel's body leaves in the output block.

  At each grid point the body computes, for the point's two [3, 512, 512] input blocks, the channel minima, their
  35 × 35 window maxima (row pass then column pass, through the two framed scratch images), the sum over all pixels of
  the absolute differences, and adds that sum to every lane of row 0 of the output block; at the first point of a
  group it first fills the block with zeros.
-/
import proofs.«163365_j18872086298967_1_alg».proof.Proof.Passes
import proofs.«163365_j18872086298967_1_alg».proof.Proof.Gen.KernelIdeal.Frame
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.KernelSide

open Idealize.ShloMosaic Idealize.ShloMosaic.TcCoe Idealize.SL.Sem Idealize.ShloMosaic.ValueIdx
open Cert.KernelIdeal Cert.KernelIdeal.Gen Cert.Framed

/-- A [1, 3, 512, 512] block without its leading unit axis. -/
def dropUnit (x : Vec Ideal S1x3x512x512 .f32) : (⟨3, ![3, 512, 512]⟩ : Shape).Idx → EReal :=
  fun i => x (ix4 (0 : Fin 1) (i 0) (i 1) (i 2))

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The word 0xFF800000 denotes −∞. -/
theorem negInf_eq : (Scalar.ofBits .f32 0xFF800000#32 : Ideal .f32) = ⊥ := by
  show Ideal.ofBits .f32 0xFF800000#32 = ⊥
  simp [Ideal.ofBits, Ideal.ieee]

/-! ## The fills -/

/-- The −∞ borders of the two scratch images. -/
def negH : FVec Ideal S512x17 .f32 := fun _ => ⊥
def negV : FVec Ideal S17x512 .f32 := fun _ => ⊥

theorem pay4_eq : k0_pay4 (F := Ideal) = negH := by
  funext k; unfold k0_pay4; rw [shapeCast_self]; exact negInf_eq
theorem pay5_eq : k0_pay5 (F := Ideal) = negH := by
  funext k; unfold k0_pay5; rw [shapeCast_self]; exact negInf_eq
theorem pay16_eq : k0_pay16 (F := Ideal) = negH := by
  funext k; unfold k0_pay16; rw [shapeCast_self]; exact negInf_eq
theorem pay18_eq : k0_pay18 (F := Ideal) k0_pay17 = negH := by
  funext k; unfold k0_pay18 k0_pay17; rw [shapeCast_self]; exact negInf_eq
theorem pay10_eq : k0_pay10 (F := Ideal) = negV := by
  funext k; unfold k0_pay10; rw [shapeCast_self]; exact negInf_eq
theorem pay11_eq : k0_pay11 (F := Ideal) = negV := by
  funext k; unfold k0_pay11; rw [shapeCast_self]; exact negInf_eq
theorem pay22_eq : k0_pay22 (F := Ideal) = negV := by
  funext k; unfold k0_pay22; rw [shapeCast_self]; exact negInf_eq
theorem pay23_eq : k0_pay23 (F := Ideal) = negV := by
  funext k; unfold k0_pay23; rw [shapeCast_self]; exact negInf_eq

/-! ## The channel minimum -/

/-- The reduced index (h, w) with channel `ch` put back is (ch, h, w). -/
theorem lift_chan (j : S512x512.Idx) (ch : Fin (S3x512x512.size 0)) :
    reduces_S3x512x512_S512x512.lift j ch = ix3 (⟨ch.val, ch.isLt⟩ : Fin 3) (j 0) (j 1) := by
  funext a; apply Fin.ext
  fin_cases a <;> rfl

/-- The minimum over the channel axis of a block is the specification's channel minimum. -/
theorem chanMin_block (x : Vec Ideal S1x3x512x512 .f32) :
    multiReduction (F := Ideal) .minimumf [0] S512x512 (shapeCast S3x512x512 x shapeCasts_S1x3x512x512_S3x512x512) 0x7F800000#32
      reduces_S3x512x512_S512x512 (.inl rfl) rfl = Cert.Pool.chanMin (dropUnit x) := by
  funext j
  refine (multiReduction_minimumf_eq_fold (F := Ideal) _ _ reduces_S3x512x512_S512x512 _ _ j).trans ?_
  refine (reduces_S3x512x512_S512x512.fold_filter_drop_single _ _ _ j).trans ?_
  unfold Cert.Pool.chanMin
  refine congrArg (fun f => Finset.fold min (Ideal.ofBits .f32 0x7F800000#32) f (Finset.univ : Finset (Fin 3))) ?_
  funext ch
  show shapeCast S3x512x512 x _ (reduces_S3x512x512_S512x512.lift j ch) = _
  rw [lift_chan]
  exact shapeCast_1abc_abc_apply (m := 3) (a := 512) (b := 512) x shapeCasts_S1x3x512x512_S3x512x512 ⟨ch.val, ch.isLt⟩ (j 0) (j 1)

theorem pay6_eq (x : Vec Ideal S1x3x512x512 .f32) : k0_pay6 (F := Ideal) x = Cert.Pool.chanMin (dropUnit x) := by
  unfold k0_pay6; dsimp only; rw [shapeCast_self]; exact chanMin_block x
theorem pay19_pay3_eq (x : Vec Ideal S1x3x512x512 .f32) :
    k0_pay19 (F := Ideal) (k0_pay3 x) = Cert.Pool.chanMin (dropUnit x) := by
  unfold k0_pay19 k0_pay3; dsimp only; rw [shapeCast_self]; exact chanMin_block x

/-! ## The loads -/

/-- A load of a whole input block reads the block. -/
theorem readAt_whole4 (a : Memref sig .tc .vmem S1x3x512x512 .f32) (ha : a.IsWhole) (x : Vec Ideal S1x3x512x512 .f32)
    (inb : ∀ b, (![0, 0, 0, 0] : Fin 4 → ℕ) b + S1x3x512x512.size b ≤ S1x3x512x512.size b) :
    View.readAt (Elt Ideal) a.view (Rect.unit (s := S1x3x512x512) ![0, 0, 0, 0] S1x3x512x512.size inb).toLoadRect (ha.unread x) = x := by
  rw [View.readAt_eq_ld, ha.read_unread, View.ld_unit_zero (S := S1x3x512x512) hz4]

/-- A load of 512 columns of the filled horizontal scratch, as a function. -/
theorem hload (v : View sig .tc .vmem S512x640 EltTy.f32) (x : FVec Ideal S512x512 .f32)
    (L' : List (View.Piece (Elt Ideal) S512x640 EltTy.f32)) (inbX) (inbR) (inbL) (o : ℕ) (ho : o ≤ 34) (inb) :
    v.readCov ((⟨Rect.unit (s := S512x640) ![0, 17] S512x512.size inbX, x⟩ : View.Piece (Elt Ideal) S512x640 EltTy.f32)
        :: ⟨Rect.unit (s := S512x640) ![0, 529] S512x17.size inbR, negH⟩
        :: ⟨Rect.unit (s := S512x640) ![0, 0] S512x17.size inbL, negH⟩ :: L')
      (Rect.unit (s := S512x640) ![0, o] S512x512.size inb).toLoadRect
      = fun j : S512x512.Idx => rowFramed x (j 0).val ((j 1).val + o) :=
  funext fun j => readCov_rowFramed v x _ _ (fun _ => rfl) (fun _ => rfl) L' inbX inbR inbL o ho inb j

/-- A load of 512 rows of the filled vertical scratch, as a function. -/
theorem vload (v : View sig .tc .vmem S552x512 EltTy.f32) (x : FVec Ideal S512x512 .f32)
    (L' : List (View.Piece (Elt Ideal) S552x512 EltTy.f32)) (inbX) (inbB) (inbT) (o : ℕ) (ho : o ≤ 34) (inb) :
    v.readCov ((⟨Rect.unit (s := S552x512) ![17, 0] S512x512.size inbX, x⟩ : View.Piece (Elt Ideal) S552x512 EltTy.f32)
        :: ⟨Rect.unit (s := S552x512) ![529, 0] S17x512.size inbB, negV⟩
        :: ⟨Rect.unit (s := S552x512) ![0, 0] S17x512.size inbT, negV⟩ :: L')
      (Rect.unit (s := S552x512) ![o, 0] S512x512.size inb).toLoadRect
      = fun j : S512x512.Idx => colFramed x ((j 0).val + o) (j 1).val :=
  funext fun j => readCov_colFramed v x _ _ (fun _ => rfl) (fun _ => rfl) L' inbX inbB inbT o ho inb j

/-- The pointwise maximum of two images, as a function. -/
theorem maximumf_fun (a b : FVec Ideal S512x512 .f32) : maximumf a b = fun i => max (a i) (b i) := rfl

/-! ## The accumulate -/

/-- A rank-1 shape's indices are its one coordinate's values. -/
def idxEquiv1 {n : ℕ} : (⟨1, ![n]⟩ : Shape).Idx ≃ Fin n where
  toFun i := i 0
  invFun a := ix1 a
  left_inv i := (eq_ix1 i).symm
  right_inv _ := rfl

/-- The row index k with column k' put back is (k, k'). -/
theorem lift_row (k : S512.Idx) (k' : Fin (S512x512.size 1)) :
    reduces_S512x512_S512.lift k k' = ix2 (k 0) (⟨k'.val, k'.isLt⟩ : Fin 512) := by
  funext a; apply Fin.ext
  fin_cases a <;> rfl

/-- The sum of all entries of a [512, 512] image, taken as row sums (kept as a column) and then the sum of those:
    the double sum over rows and columns. -/
theorem total_eq_sum (D : FVec Ideal S512x512 .f32) (z : S1.Idx) :
    multiReduction (F := Ideal) .add [0] S1
        (shapeCast S512x1 (multiReduction (F := Ideal) .add [1] S512 D 0x00000000#32 reduces_S512x512_S512 (.inl rfl) rfl)
          shapeCasts_S512_S512x1) 0x00000000#32 reduces_S512x1_S1 (.inl rfl) rfl z
      = ∑ h : Fin 512, ∑ w : Fin 512, D (ix2 h w) := by
  refine (Ideal.multiReduction_add_total _ _ reduces_S512x1_S1 (fun b => by fin_cases b; rfl) _ _ z).trans ?_
  refine (Equiv.sum_comp (Shape.reshapeEquiv shapeCasts_S512_S512x1) _).trans ?_
  refine (Equiv.sum_comp (idxEquiv1 (n := 512)).symm _).symm.trans ?_
  refine Finset.sum_congr rfl fun h _ => ?_
  refine (Ideal.multiReduction_add_single D _ reduces_S512x512_S512 _ _ _).trans ?_
  refine Finset.sum_congr rfl fun w _ => ?_
  rw [lift_row]
  rfl

/-- The last store's value at a lane: what the row held plus the sum over all pixels of |a − max (max b c) d|. -/
theorem pay1_apply (a b c d : FVec Ideal S512x512 .f32) (e : Vec Ideal S1x128 .f32) (y : S1x128.Idx) :
    k0_pay1 (F := Ideal) a b c d e y = e y + ∑ h : Fin 512, ∑ w : Fin 512,
        max (a (ix2 h w) - maximumf (maximumf b c) d (ix2 h w)) (-(a (ix2 h w) - maximumf (maximumf b c) d (ix2 h w))) := by
  unfold k0_pay1
  dsimp only
  rw [shapeCast_self, shapeCast_self]
  refine congrArg (fun t => e y + t) ?_
  refine (broadcastTo_apply _ broadcasts_S1x1_S1x128 y (ix2 (0 : Fin 1) (0 : Fin 1)) (fun a => by fin_cases a <;> rfl)).trans ?_
  refine (total_eq_sum (absf (subf a (maximumf (maximumf b c) d))) _).trans ?_
  rfl

/-- The sum over all pixels of |a − m| for two [512, 512] images. -/
def absDiffSum (a m : FVec Ideal S512x512 .f32) : EReal :=
  ∑ h : Fin 512, ∑ w : Fin 512, max (a (ix2 h w) - m (ix2 h w)) (-(a (ix2 h w) - m (ix2 h w)))

/-- A [1, 128] row with one number added to every lane. -/
def accRow (e : Vec Ideal S1x128 .f32) (t : EReal) : Vec Ideal S1x128 .f32 := fun y => e y + t

/-- The last store's value: the old row plus, in every lane, the sum of the absolute differences. -/
theorem pay1_eq (a b c d : FVec Ideal S512x512 .f32) (e : Vec Ideal S1x128 .f32) :
    k0_pay1 (F := Ideal) a b c d e = accRow e (absDiffSum a (maximumf (maximumf b c) d)) :=
  funext fun y => pay1_apply a b c d e y

/-- Over two window-maximum images the sum of absolute differences is the specification's image total. -/
theorem absDiffSum_pooled (X Y : (⟨3, ![3, 512, 512]⟩ : Shape).Idx → EReal) :
    absDiffSum (fun j => Cert.Pool.pooled (Cert.Pool.chanMin X) (j 0).val (j 1).val)
        (fun j => Cert.Pool.pooled (Cert.Pool.chanMin Y) (j 0).val (j 1).val)
      = Cert.Pool.imgTotal X Y := rfl

/-! ## The output block -/

/-- The zero fill's value. -/
theorem pay2_apply (z : S8x128.Idx) : k0_pay2 (F := Ideal) z = 0 := by
  show Ideal.ofBits .f32 0x00000000#32 = 0
  exact Ideal.ofBits_zero_f32

/-- After the zero fill and the accumulate into row 0 (the first point of a group): row 0 holds 0 + t, the rest 0. -/
theorem block_first (v v' : View sig .tc .vmem S8x128 EltTy.f32) (f : v.ty.Contents (Elt Ideal)) (t : EReal)
    (inb1 : ∀ a, (![0, 0] : Fin 2 → ℕ) a + (![1, 128] : Fin 2 → ℕ) a ≤ S8x128.size a)
    (inb8 : ∀ a, (![0, 0] : Fin 2 → ℕ) a + S8x128.size a ≤ S8x128.size a) :
    v.read (Elt Ideal) (v.writes (Elt Ideal) f
      [⟨Rect.unit (s := S8x128) ![0, 0] ![1, 128] inb1,
          accRow (View.readCov (Val := Elt Ideal) v' [⟨Rect.unit (s := S8x128) ![0, 0] S8x128.size inb8, k0_pay2 (F := Ideal)⟩]
            (Rect.unit (s := S8x128) ![0, 0] ![1, 128] inb1).toLoadRect) t⟩,
        ⟨Rect.unit (s := S8x128) ![0, 0] S8x128.size inb8, k0_pay2 (F := Ideal)⟩])
      = fun y => if (y 0).val = 0 then (0 : EReal) + t else 0 := by
  funext y
  have hy0 : (y 0).val < 8 := (y 0).isLt
  have hy1 : (y 1).val < 128 := (y 1).isLt
  by_cases hy : (y 0).val = 0
  · rw [if_pos hy]
    refine (View.read_writes_cons_unit_of_mem (Val := Elt Ideal) v f inb1 _ _ y
      (ix2 (0 : Fin 1) (⟨(y 1).val, hy1⟩ : Fin 128)) rfl
      (Fin.forall_fin_two.mpr ⟨by show (y 0).val = 0 + 0; omega, by show (y 1).val = 0 + (y 1).val; omega⟩)).trans ?_
    show View.readCov (Val := Elt Ideal) v' _ _ _ + t = (0 : EReal) + t
    refine congrArg (fun z : EReal => z + t) ?_
    generalize hq : (Rect.unit (s := S8x128) ![0, 0] ![1, 128] inb1).toLoadRect.idx
      (ix2 (0 : Fin 1) (⟨(y 1).val, hy1⟩ : Fin 128)) = q
    show v'.read (Elt Ideal) (v'.writes (Elt Ideal) v'.junk _) _ = _
    rw [hq]
    exact (View.read_writes_cons_unit_of_mem (Val := Elt Ideal) v' v'.junk inb8 (k0_pay2 (F := Ideal)) [] q q rfl
      (Fin.forall_fin_two.mpr ⟨by show (q 0).val = 0 + (q 0).val; omega, by show (q 1).val = 0 + (q 1).val; omega⟩)).trans
      (pay2_apply q)
  · rw [if_neg hy]
    rw [View.read_writes_cons_unit_of_not_mem (Val := Elt Ideal) v f inb1 _ _ y rfl 0
      (Or.inr (by show 0 + 1 ≤ (y 0).val; omega))]
    exact (View.read_writes_cons_unit_of_mem (Val := Elt Ideal) v f inb8 (k0_pay2 (F := Ideal)) [] y y rfl
      (Fin.forall_fin_two.mpr ⟨by show (y 0).val = 0 + (y 0).val; omega, by show (y 1).val = 0 + (y 1).val; omega⟩)).trans
      (pay2_apply y)

/-- After the accumulate into row 0 of a block holding xo (a later point of a group): row 0 holds xo + t, the rest xo. -/
theorem block_later (a4 : Memref sig .tc .vmem S8x128 .f32) (h4 : a4.IsWhole) (xo : Vec Ideal S8x128 .f32) (t : EReal)
    (inb1 : ∀ a, (![0, 0] : Fin 2 → ℕ) a + (![1, 128] : Fin 2 → ℕ) a ≤ S8x128.size a) :
    a4.view.read (Elt Ideal) (a4.view.writes (Elt Ideal) (h4.unread xo)
      [⟨Rect.unit (s := S8x128) ![0, 0] ![1, 128] inb1,
          accRow (View.readAt (Elt Ideal) a4.view (Rect.unit (s := S8x128) ![0, 0] ![1, 128] inb1).toLoadRect (h4.unread xo)) t⟩])
      = fun y => if (y 0).val = 0 then xo y + t else xo y := by
  funext y
  have hy0 : (y 0).val < 8 := (y 0).isLt
  have hy1 : (y 1).val < 128 := (y 1).isLt
  by_cases hy : (y 0).val = 0
  · rw [if_pos hy]
    refine (View.read_writes_cons_unit_of_mem (Val := Elt Ideal) a4.view _ inb1 _ _ y
      (ix2 (0 : Fin 1) (⟨(y 1).val, hy1⟩ : Fin 128)) rfl
      (Fin.forall_fin_two.mpr ⟨by show (y 0).val = 0 + 0; omega, by show (y 1).val = 0 + (y 1).val; omega⟩)).trans ?_
    show a4.view.read (Elt Ideal) (h4.unread xo) _ + t = xo y + t
    rw [h4.read_unread]
    refine congrArg (fun z => xo z + t) ?_
    funext a; apply Fin.ext
    match a with
    | ⟨0, _⟩ => show 0 + 1 * 0 = (y 0).val; omega
    | ⟨1, _⟩ => show 0 + 1 * (y 1).val = (y 1).val; omega
  · rw [if_neg hy]
    rw [View.read_writes_cons_unit_of_not_mem (Val := Elt Ideal) a4.view _ inb1 _ _ y rfl 0
      (Or.inr (by show 0 + 1 ≤ (y 0).val; omega))]
    rw [View.writes_nil, h4.read_unread]

/-! ## What each case leaves

Every load of a scratch image reads the framed rows or columns from its offset (0 to 34); each chain of 34 maxima over
those 35 loads is a pass; the column pass of the row pass is the window maximum; and the last store is the old row plus,
in every lane, the image total. -/

set_option maxHeartbeats 0 in
/-- At the first point of a group the output block ends with 0 + (the image total) in row 0 and zeros below. -/
theorem out_A (c : Dev nD) (i : grid0.Coords) (arg2 : Memref sig .tc .vmem S1x3x512x512 .f32) (harg2 : arg2.IsWhole) (arg3 : Memref sig .tc .vmem S1x3x512x512 .f32) (harg3 : arg3.IsWhole) (arg4 : Memref sig .tc .vmem S8x128 .f32) (harg4 : arg4.IsWhole) (arg5 : Memref sig .tc .vmem S512x640 .f32) (harg5 : arg5.IsWhole) (arg6 : Memref sig .tc .vmem S552x512 .f32) (harg6 : arg6.IsWhole) (hc0 : cond0_0 i)
    (x0 x1 : Vec Ideal S1x3x512x512 .f32) :
    out0_A_2 c i arg2 harg2 arg3 harg3 arg4 harg4 arg5 harg5 arg6 harg6 hc0 x0 x1
      = fun y => if (y 0).val = 0 then (0 : EReal) + Cert.Pool.imgTotal (dropUnit x0) (dropUnit x1) else 0 := by
  unfold out0_A_2
  unfold kernelRun0_A
  dsimp only
  sl_unfold_words
  rw [readAt_whole4 arg2 harg2 x0, readAt_whole4 arg3 harg3 x1]
  simp only [pay4_eq, pay5_eq, pay16_eq, pay18_eq, pay10_eq, pay11_eq, pay22_eq, pay23_eq, pay6_eq, pay19_pay3_eq, pay1_eq,
    k0_pay7, k0_pay8, k0_pay9, k0_pay12, k0_pay13, k0_pay14, k0_pay15, k0_pay20, k0_pay21, k0_pay24, k0_pay25, k0_pay26, k0_pay27,
    maximumf_fun, shapeCast_self]
  simp only [hload (o := 0) (ho := by omega), hload (o := 1) (ho := by omega), hload (o := 2) (ho := by omega), hload (o := 3) (ho := by omega), hload (o := 4) (ho := by omega), hload (o := 5) (ho := by omega), hload (o := 6) (ho := by omega), hload (o := 7) (ho := by omega), hload (o := 8) (ho := by omega), hload (o := 9) (ho := by omega), hload (o := 10) (ho := by omega), hload (o := 11) (ho := by omega), hload (o := 12) (ho := by omega), hload (o := 13) (ho := by omega), hload (o := 14) (ho := by omega), hload (o := 15) (ho := by omega), hload (o := 16) (ho := by omega), hload (o := 17) (ho := by omega), hload (o := 18) (ho := by omega), hload (o := 19) (ho := by omega), hload (o := 20) (ho := by omega), hload (o := 21) (ho := by omega), hload (o := 22) (ho := by omega), hload (o := 23) (ho := by omega), hload (o := 24) (ho := by omega), hload (o := 25) (ho := by omega), hload (o := 26) (ho := by omega), hload (o := 27) (ho := by omega), hload (o := 28) (ho := by omega), hload (o := 29) (ho := by omega), hload (o := 30) (ho := by omega), hload (o := 31) (ho := by omega), hload (o := 32) (ho := by omega), hload (o := 33) (ho := by omega), hload (o := 34) (ho := by omega), hchain_fun]
  simp only [vload (o := 0) (ho := by omega), vload (o := 1) (ho := by omega), vload (o := 2) (ho := by omega), vload (o := 3) (ho := by omega), vload (o := 4) (ho := by omega), vload (o := 5) (ho := by omega), vload (o := 6) (ho := by omega), vload (o := 7) (ho := by omega), vload (o := 8) (ho := by omega), vload (o := 9) (ho := by omega), vload (o := 10) (ho := by omega), vload (o := 11) (ho := by omega), vload (o := 12) (ho := by omega), vload (o := 13) (ho := by omega), vload (o := 14) (ho := by omega), vload (o := 15) (ho := by omega), vload (o := 16) (ho := by omega), vload (o := 17) (ho := by omega), vload (o := 18) (ho := by omega), vload (o := 19) (ho := by omega), vload (o := 20) (ho := by omega), vload (o := 21) (ho := by omega), vload (o := 22) (ho := by omega), vload (o := 23) (ho := by omega), vload (o := 24) (ho := by omega), vload (o := 25) (ho := by omega), vload (o := 26) (ho := by omega), vload (o := 27) (ho := by omega), vload (o := 28) (ho := by omega), vload (o := 29) (ho := by omega), vload (o := 30) (ho := by omega), vload (o := 31) (ho := by omega), vload (o := 32) (ho := by omega), vload (o := 33) (ho := by omega), vload (o := 34) (ho := by omega), vchain_fun, vpool_hpool, absDiffSum_pooled]
  exact block_first _ _ _ _ _ _

set_option maxHeartbeats 0 in
/-- At a later point of a group the output block, holding xo, ends with xo + (the image total) in row 0 and xo below. -/
theorem out_B (c : Dev nD) (i : grid0.Coords) (arg2 : Memref sig .tc .vmem S1x3x512x512 .f32) (harg2 : arg2.IsWhole) (arg3 : Memref sig .tc .vmem S1x3x512x512 .f32) (harg3 : arg3.IsWhole) (arg4 : Memref sig .tc .vmem S8x128 .f32) (harg4 : arg4.IsWhole) (arg5 : Memref sig .tc .vmem S512x640 .f32) (harg5 : arg5.IsWhole) (arg6 : Memref sig .tc .vmem S552x512 .f32) (harg6 : arg6.IsWhole) (hc0 : ¬cond0_0 i)
    (x0 x1 : Vec Ideal S1x3x512x512 .f32) (xo : Vec Ideal S8x128 .f32) :
    out0_B_2 c i arg2 harg2 arg3 harg3 arg4 harg4 arg5 harg5 arg6 harg6 hc0 x0 x1 xo
      = fun y => if (y 0).val = 0 then xo y + Cert.Pool.imgTotal (dropUnit x0) (dropUnit x1) else xo y := by
  unfold out0_B_2
  unfold kernelRun0_B
  dsimp only
  sl_unfold_words
  rw [readAt_whole4 arg2 harg2 x0, readAt_whole4 arg3 harg3 x1]
  simp only [pay4_eq, pay5_eq, pay16_eq, pay18_eq, pay10_eq, pay11_eq, pay22_eq, pay23_eq, pay6_eq, pay19_pay3_eq, pay1_eq,
    k0_pay7, k0_pay8, k0_pay9, k0_pay12, k0_pay13, k0_pay14, k0_pay15, k0_pay20, k0_pay21, k0_pay24, k0_pay25, k0_pay26, k0_pay27,
    maximumf_fun, shapeCast_self]
  simp only [hload (o := 0) (ho := by omega), hload (o := 1) (ho := by omega), hload (o := 2) (ho := by omega), hload (o := 3) (ho := by omega), hload (o := 4) (ho := by omega), hload (o := 5) (ho := by omega), hload (o := 6) (ho := by omega), hload (o := 7) (ho := by omega), hload (o := 8) (ho := by omega), hload (o := 9) (ho := by omega), hload (o := 10) (ho := by omega), hload (o := 11) (ho := by omega), hload (o := 12) (ho := by omega), hload (o := 13) (ho := by omega), hload (o := 14) (ho := by omega), hload (o := 15) (ho := by omega), hload (o := 16) (ho := by omega), hload (o := 17) (ho := by omega), hload (o := 18) (ho := by omega), hload (o := 19) (ho := by omega), hload (o := 20) (ho := by omega), hload (o := 21) (ho := by omega), hload (o := 22) (ho := by omega), hload (o := 23) (ho := by omega), hload (o := 24) (ho := by omega), hload (o := 25) (ho := by omega), hload (o := 26) (ho := by omega), hload (o := 27) (ho := by omega), hload (o := 28) (ho := by omega), hload (o := 29) (ho := by omega), hload (o := 30) (ho := by omega), hload (o := 31) (ho := by omega), hload (o := 32) (ho := by omega), hload (o := 33) (ho := by omega), hload (o := 34) (ho := by omega), hchain_fun]
  simp only [vload (o := 0) (ho := by omega), vload (o := 1) (ho := by omega), vload (o := 2) (ho := by omega), vload (o := 3) (ho := by omega), vload (o := 4) (ho := by omega), vload (o := 5) (ho := by omega), vload (o := 6) (ho := by omega), vload (o := 7) (ho := by omega), vload (o := 8) (ho := by omega), vload (o := 9) (ho := by omega), vload (o := 10) (ho := by omega), vload (o := 11) (ho := by omega), vload (o := 12) (ho := by omega), vload (o := 13) (ho := by omega), vload (o := 14) (ho := by omega), vload (o := 15) (ho := by omega), vload (o := 16) (ho := by omega), vload (o := 17) (ho := by omega), vload (o := 18) (ho := by omega), vload (o := 19) (ho := by omega), vload (o := 20) (ho := by omega), vload (o := 21) (ho := by omega), vload (o := 22) (ho := by omega), vload (o := 23) (ho := by omega), vload (o := 24) (ho := by omega), vload (o := 25) (ho := by omega), vload (o := 26) (ho := by omega), vload (o := 27) (ho := by omega), vload (o := 28) (ho := by omega), vload (o := 29) (ho := by omega), vload (o := 30) (ho := by omega), vload (o := 31) (ho := by omega), vload (o := 32) (ho := by omega), vload (o := 33) (ho := by omega), vload (o := 34) (ho := by omega), vchain_fun, vpool_hpool, absDiffSum_pooled]
  exact block_later arg4 harg4 xo _ _

end Cert.KernelSide

end
-- ==== Proof.OutsAt.lean ====
/-
  What the output's staging buffer holds after grid point `n`: row 0 holds, in every lane, the running sum of the
  batch totals of `n`'s group up to batch `n`; rows 1 to 7 hold zero.

  Point `n` works on batch `n` of both arguments (its input blocks are the batch's [3, 512, 512] images). The first point of
  a group (n divisible by 8) fills the block with zeros and adds the batch's total to row 0; every other point adds its
  batch's total to what the point before left. So, by induction on the point, row 0 holds the sum of the totals of the
  group's batches so far.
-/
import proofs.«163365_j18872086298967_1_alg».proof.Proof.Spec
import proofs.«163365_j18872086298967_1_alg».proof.Proof.Body
import proofs.«163365_j18872086298967_1_alg».proof.Proof.Gen.KernelIdeal.Frame

set_option maxRecDepth 16384

noncomputable section

namespace Cert.KernelSide

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The two argument arrays as the kernel finds them. -/
abbrev argA (c : Dev nD) : S16x3x512x512.Idx → EReal := m ((c : Thread nD τ).loc main_arg0)
abbrev argB (c : Dev nD) : S16x3x512x512.Idx → EReal := m ((c : Thread nD τ).loc main_arg1)

/-! ## The input blocks -/

/-- At grid point `t` both input windows sit at batch `t`. -/
theorem in_index0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, win0_0.index t (0 : Fin 4) = t.val ∧ win0_0.index t (1 : Fin 4) = 0
    ∧ win0_0.index t (2 : Fin 4) = 0 ∧ win0_0.index t (3 : Fin 4) = 0)
theorem in_index1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, win0_1.index t (0 : Fin 4) = t.val ∧ win0_1.index t (1 : Fin 4) = 0
    ∧ win0_1.index t (2 : Fin 4) = 0 ∧ win0_1.index t (3 : Fin 4) = 0)

/-- The first input block at point `t`, without its unit axis, is batch `t` of the first argument. -/
theorem iblk0_drop (c : Dev nD) (t : Fin cfg0.N) (ht : t.val < 16) :
    dropUnit (iblk m c 0 t) = Cert.Pool.slab (argA m c) ⟨t.val, ht⟩ := by
  obtain ⟨e0, e1, e2, e3⟩ := in_index0 t
  funext i
  unfold dropUnit Cert.Pool.slab iblk
  rw [View.read_apply]
  show m ((c : Thread nD τ).loc main_arg0) _ = m ((c : Thread nD τ).loc main_arg0) _
  refine congrArg _ ?_
  funext a; apply Fin.ext
  match a with
  | ⟨0, _⟩ => show win0_0.index t (0 : Fin 4) * 1 + 1 * 0 = t.val; rw [e0]; omega
  | ⟨1, _⟩ => show win0_0.index t (1 : Fin 4) * 3 + 1 * (i 0).val = (i 0).val; rw [e1]; omega
  | ⟨2, _⟩ => show win0_0.index t (2 : Fin 4) * 512 + 1 * (i 1).val = (i 1).val; rw [e2]; omega
  | ⟨3, _⟩ => show win0_0.index t (3 : Fin 4) * 512 + 1 * (i 2).val = (i 2).val; rw [e3]; omega

/-- The second input block at point `t`, without its unit axis, is batch `t` of the second argument. -/
theorem iblk1_drop (c : Dev nD) (t : Fin cfg0.N) (ht : t.val < 16) :
    dropUnit (iblk m c 1 t) = Cert.Pool.slab (argB m c) ⟨t.val, ht⟩ := by
  obtain ⟨e0, e1, e2, e3⟩ := in_index1 t
  funext i
  unfold dropUnit Cert.Pool.slab iblk
  rw [View.read_apply]
  show m ((c : Thread nD τ).loc main_arg1) _ = m ((c : Thread nD τ).loc main_arg1) _
  refine congrArg _ ?_
  funext a; apply Fin.ext
  match a with
  | ⟨0, _⟩ => show win0_1.index t (0 : Fin 4) * 1 + 1 * 0 = t.val; rw [e0]; omega
  | ⟨1, _⟩ => show win0_1.index t (1 : Fin 4) * 3 + 1 * (i 0).val = (i 0).val; rw [e1]; omega
  | ⟨2, _⟩ => show win0_1.index t (2 : Fin 4) * 512 + 1 * (i 1).val = (i 1).val; rw [e2]; omega
  | ⟨3, _⟩ => show win0_1.index t (3 : Fin 4) * 512 + 1 * (i 2).val = (i 2).val; rw [e3]; omega

/-! ## The running sum -/

/-- At the first batch of a group the running sum is that batch's total. -/
theorem rowAcc_first (A B : S16x3x512x512.Idx → EReal) (p : ℕ) (hp : p % 8 = 0) (hlt : p < 16) :
    Cert.Pool.rowAcc A B p = Cert.Pool.imgTotal (Cert.Pool.slab A ⟨p, hlt⟩) (Cert.Pool.slab B ⟨p, hlt⟩) := by
  have e : 8 * (p / 8) + 0 = p := by omega
  unfold Cert.Pool.rowAcc
  rw [hp, Nat.zero_add, Finset.sum_range_one, e]
  unfold Cert.Pool.batchTotalN
  rw [dif_pos hlt]
  rfl

/-- At a later batch of a group the running sum grows by that batch's total. -/
theorem rowAcc_succ (A B : S16x3x512x512.Idx → EReal) (n : ℕ) (h : ¬(n + 1) % 8 = 0) (hlt : n + 1 < 16) :
    Cert.Pool.rowAcc A B (n + 1)
      = Cert.Pool.rowAcc A B n + Cert.Pool.imgTotal (Cert.Pool.slab A ⟨n + 1, hlt⟩) (Cert.Pool.slab B ⟨n + 1, hlt⟩) := by
  have e1 : (n + 1) / 8 = n / 8 := by omega
  have e2 : (n + 1) % 8 = n % 8 + 1 := by omega
  have e3 : 8 * (n / 8) + (n % 8 + 1) = n + 1 := by omega
  unfold Cert.Pool.rowAcc
  rw [e1, e2, Finset.sum_range_succ, e3]
  unfold Cert.Pool.batchTotalN
  rw [dif_pos hlt]
  rfl

/-! ## After each point -/

theorem outsAt_eq (c : Dev nD) : ∀ (n : ℕ) (hn : n < cfg0.N),
    outsAt0 m c n hn = fun y => if (y 0).val = 0 then Cert.Pool.rowAcc (argA m c) (argB m c) n else 0
  | 0, hn => by
    have hN : cfg0.N = 16 := N_0
    have hlt : (0 : ℕ) < 16 := by omega
    rw [outsAt0_A m c ⟨0, hn⟩ (Nat.zero_mod 8), out_A, iblk0_drop m c ⟨0, hn⟩ hlt, iblk1_drop m c ⟨0, hn⟩ hlt]
    funext y
    by_cases hy : (y 0).val = 0
    · rw [if_pos hy, if_pos hy, zero_add]
      exact (rowAcc_first _ _ 0 (Nat.zero_mod 8) hlt).symm
    · rw [if_neg hy, if_neg hy]
  | n + 1, hn => by
    have hN : cfg0.N = 16 := N_0
    have hlt : n + 1 < 16 := by omega
    by_cases h0 : (n + 1) % 8 = 0
    · rw [outsAt0_A m c ⟨n + 1, hn⟩ h0, out_A, iblk0_drop m c ⟨n + 1, hn⟩ hlt, iblk1_drop m c ⟨n + 1, hn⟩ hlt]
      funext y
      by_cases hy : (y 0).val = 0
      · rw [if_pos hy, if_pos hy, zero_add]
        exact (rowAcc_first _ _ (n + 1) h0 hlt).symm
      · rw [if_neg hy, if_neg hy]
    · rw [outsAt0_B m c ⟨n + 1, hn⟩ h0, out_B, iblk0_drop m c ⟨n + 1, hn⟩ hlt, iblk1_drop m c ⟨n + 1, hn⟩ hlt]
      have ih := outsAt_eq c n (Nat.lt_of_succ_lt hn)
      funext y
      show (if (y 0).val = 0 then outsAt0 m c n _ y + _ else outsAt0 m c n _ y) = _
      rw [ih]
      by_cases hy : (y 0).val = 0
      · rw [if_pos hy, if_pos hy]
        dsimp only
        rw [if_pos hy]
        exact (rowAcc_succ _ _ n h0 hlt).symm
      · rw [if_neg hy, if_neg hy]
        dsimp only
        rw [if_neg hy]

end Cert.KernelSide

end
-- ==== Proof.KernelRun.lean ====
/-
  From the staging buffer's contents point by point to the program's result.

  The kernel's result is a [16, 128] array written back in two blocks of eight rows, one per group of eight
  batches, each after the group's last batch: row 8 g ends holding, in every lane, the sum of group g's eight batch
  totals, and the other rows zero (`final`). The operations after the kernel take column 0 of that array as a vector of
  sixteen, add it up from zero — the two group sums, hence the sum of all sixteen batch totals (`sum_groupRows`,
  `reduce_col0`) — and apply the closing scalar operations, which are the specification's own (`tail_eq`). The two
  argument arrays are only read (`run`).
-/
import proofs.«163365_j18872086298967_1_alg».proof.Proof.OutsAt
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelSide

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The sum of the group sums -/

section Sum

variable (A B : (⟨4, ![16, 3, 512, 512]⟩ : Shape).Idx → EReal)

/-- A batch total read at a batch's number is that batch's total. -/
theorem batchTotalN_val (b : Fin 16) : Cert.Pool.batchTotalN A B b.val = Cert.Pool.batchTotal A B b := by
  unfold Cert.Pool.batchTotalN
  rw [dif_pos b.isLt]

/-- The running sum at the last batch of the first group is the sum of batches 0 to 7, -/
theorem rowAcc_7 : Cert.Pool.rowAcc A B 7 = ∑ s ∈ Finset.range 8, Cert.Pool.batchTotalN A B s := by
  unfold Cert.Pool.rowAcc
  refine Finset.sum_congr rfl fun s _ => ?_
  congr 1
  omega

/-- and at the last batch of the second group the sum of batches 8 to 15. -/
theorem rowAcc_15 : Cert.Pool.rowAcc A B 15 = ∑ s ∈ Finset.range 8, Cert.Pool.batchTotalN A B (8 + s) := by
  unfold Cert.Pool.rowAcc
  rfl

/-- Column 0 of the array of group sums, added over its sixteen rows, is the sum of all sixteen batch totals: only rows
    0 and 8 are not zero, and they hold the two groups' sums. -/
theorem sum_groupRows : ∑ k : Fin 16, Cert.Pool.groupSums A B (ix2 k (0 : Fin 128)) = Cert.Pool.total A B := by
  have hcol : ∀ k : Fin 16, Cert.Pool.groupSums A B (ix2 k (0 : Fin 128))
      = if k.val % 8 = 0 then Cert.Pool.rowAcc A B (k.val + 7) else 0 := fun k => rfl
  rw [Finset.sum_congr rfl fun k _ => hcol k,
    Fin.sum_univ_eq_sum_range (fun n => if n % 8 = 0 then Cert.Pool.rowAcc A B (n + 7) else 0) 16]
  have hsum : ∑ n ∈ Finset.range 16, (if n % 8 = 0 then Cert.Pool.rowAcc A B (n + 7) else 0)
      = Cert.Pool.rowAcc A B 7 + Cert.Pool.rowAcc A B 15 := by
    simp [Finset.sum_range_succ]
  rw [hsum, rowAcc_7, rowAcc_15]
  unfold Cert.Pool.total
  rw [← Finset.sum_congr rfl fun b _ => batchTotalN_val A B b,
    Fin.sum_univ_eq_sum_range (fun n => Cert.Pool.batchTotalN A B n) 16,
    show (16 : ℕ) = 8 + 8 from rfl, Finset.sum_range_add]

end Sum

section Column

/-- Column 0 of a [16, 128] array, taken as a vector of sixteen and added up from zero, is the sum of the column's
    sixteen entries. -/
theorem reduce_col0 (G : (⟨2, ![16, 128]⟩ : Shape).Idx → EReal)
    (hs : (⟨2, ![16, 128]⟩ : Shape).Slices ![0, 0] ⟨2, ![16, 1]⟩)
    (hc : (⟨2, ![16, 1]⟩ : Shape).ShapeCasts ⟨1, ![16]⟩)
    (hr : (⟨1, ![16]⟩ : Shape).ReducesTo [0] ⟨0, ![]⟩) (h0 : 0 < (⟨0, ![]⟩ : Shape).numel) :
    Host.reduceAdd (F := Ideal) (φ := .f32)
        (shapeCast ⟨1, ![16]⟩ (extractStridedSlice ⟨2, ![16, 1]⟩ ![0, 0] G hs) hc)
        (constant (F := Ideal) ⟨0, ![]⟩ .f32 0x00000000#32) hr h0
      = fun _ => ∑ k : Fin 16, G (ix2 k (0 : Fin 128)) := by
  funext j
  simp only [Host.reduceAdd, Ideal.hostReduceAdd_def]
  rw [Ideal.hostReduceAdd_total hr (fun b => b.elim0), constant_apply, Ideal.ofBits_zero_f32, zero_add]
  refine Fintype.sum_equiv idxEquiv1 _ _ fun i => ?_
  obtain ⟨k, rfl⟩ : ∃ k : Fin 16, i = ix1 k := ⟨i 0, eq_ix1 i⟩
  show _ = G (ix2 k (0 : Fin 128))
  rw [shapeCast_apply _ hc (ix1 k) (ix2 k (0 : Fin 1)) (by
    rw [Shape.rowMajor_val_two, Shape.rowMajor_val_one]
    show k.val * 1 + 0 = k.val
    omega)]
  exact extractStridedSlice_apply _ G hs (ix2 k (0 : Fin 1)) (ix2 k (0 : Fin 128)) fun a => by
    match a with
    | ⟨0, _⟩ => show k.val = 0 + k.val; omega
    | ⟨1, _⟩ => rfl

end Column

/-! ## From blocks to the array -/

/-- The result window's block index at grid point `t`: block row `t / 8`, block column 0. -/
theorem out_index : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- What the last point of a group writes back is its block of the array of group sums: the block's row 0 is array
    row `8 (t / 8)`, which holds the group's sum up to batch `t`, its last; the other rows hold zero. -/
theorem flushed_eq (c : Dev nD) (t : Fin cfg0.N) (hf : (cfg0.win 2).flush t = true) :
    (dats m 0 c).flushed 2 t
      = ((cfg0.win 2).blk t).view.read (Elt Ideal) (Cert.Pool.groupSums (argA m c) (argB m c)) := by
  have hN : t.val < 16 := lt_of_lt_of_eq t.isLt (show cfg0.N = 16 from N_0)
  have h7 : t.val % 8 = 7 := (flush0_2 t).mp hf
  obtain ⟨e0, e1⟩ := out_index t
  show (cfg0.win 2).cut (grid0.coords t) ((dats m 0 c).after 2 t) = _
  rw [after0_2, outsAt_eq]
  funext y
  rw [View.read_apply]
  show (if (y 0).val = 0 then Cert.Pool.rowAcc (argA m c) (argB m c) t.val else 0)
    = Cert.Pool.groupSums (argA m c) (argB m c) (((cfg0.win 2).blk t).view.emb y)
  have hy : (y 0).val < 8 := (y 0).isLt
  have hrow : ((((cfg0.win 2).blk t).view.emb y) 0).val = win0_2.index t (0 : Fin 2) * 8 + 1 * (y 0).val := rfl
  unfold Cert.Pool.groupSums
  dsimp only
  rw [hrow, e0]
  by_cases h0 : (y 0).val = 0
  · rw [if_pos h0, if_pos (by omega)]
    congr 1
    omega
  · rw [if_neg h0, if_neg (by omega)]

/-- An index of the result array is in point `t`'s block iff each coordinate is in the block's range on its axis. -/
theorem mem_blk (t : Fin cfg0.N) (i : S16x128.Idx) :
    i ∈ ((cfg0.win 2).blk t).view.set
      ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- The sixteen rows are covered by the two write-backs: row `r` by the last point of group `r / 8`. -/
theorem covered (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 16 := N_0
  have hlt : 8 * ((i 0).val / 8) + 7 < cfg0.N := by rw [hN]; omega
  obtain ⟨e0, e1⟩ := out_index ⟨8 * ((i 0).val / 8) + 7, hlt⟩
  refine ⟨⟨8 * ((i 0).val / 8) + 7, hlt⟩, (flush0_2 _).mpr (by dsimp only; omega), ?_⟩
  rw [mem_blk]
  intro a
  match a with
  | ⟨0, _⟩ =>
    show win0_2.index _ (0 : Fin 2) * 8 ≤ (i 0).val ∧ (i 0).val < win0_2.index _ (0 : Fin 2) * 8 + 8
    rw [e0]; dsimp only; omega
  | ⟨1, _⟩ =>
    show win0_2.index _ (1 : Fin 2) * 128 ≤ (i 1).val ∧ (i 1).val < win0_2.index _ (1 : Fin 2) * 128 + 128
    rw [e1]; omega

/-- So the result array ends holding the group sums. -/
theorem final (c : Dev nD) : (dats m 0 c).arrAt 2 cfg0.N = Cert.Pool.groupSums (argA m c) (argB m c) :=
  (dats m 0 c).arrAt_eq_of_cover 2 _ (flushed_eq m c) fun i => covered i

/-! ## The operations after the kernel -/

/-- The last result buffer after the operations that follow the kernel: the logistic function of the mean, as the
    specification states it. The first three operations add up column 0 of the array of group sums; the remaining
    ones are the closing scalar operations. -/
theorem tail_eq (c : Dev nD) :
    Pipeline.afterTail₀ cfgs (dats m) 0 (V0 m) [hostOps1] c main_v8 = Cert.Pool.result (argA m c) (argB m c) := by
  unfold Pipeline.afterTail₀
  show StableHlo.after hostOps1 _ (Proc.devRef .tc main_v8) = _
  after_results
  have harr : Pipeline.withArrays (cfgs 0).spec c (V0 m c) (fun w => (dats m 0 c).arrAt w (cfgs 0).N)
        (Proc.devRef .tc main_v0)
      = Cert.Pool.groupSums (argA m c) (argB m c) :=
    (Pipeline.withArrays_arr spec0 launch0.win.arr_inj c _ _ 2).trans (final m c)
  rw [harr]
  unfold Cert.Pool.result
  refine congrArg Cert.Pool.logisticOfMean ?_
  exact (reduce_col0 _ _ _ _ _).trans (by rw [sum_groupRows])

/-! ## The run -/

/-- At the compiled mesh, from any memory with zero counters, every weakly fair execution of the program terminates
    with the result buffer at the specification's value and the two argument arrays as they were. -/
theorem run : θ_run (defs (F := Ideal)) (onTc (τ := τ) (main (F := Ideal))) ⟨m, fun _ => 0, ρ⟩ fun r => ∀ c : Dev nD,
      r.2.mem ((c : Thread nD τ).loc main_v8) = Cert.Pool.result (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v8 (Pipeline.mem_restRefs_of main_v8 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelSide

end
-- ==== Proof.LibWindowMax.lean ====
/-
  General lemmas on window maxima.

  A left fold of `max` over a list is the starting value joined with the supremum of the list's entries; a
  `reduce_window` whose body is `max` and whose initial value is the least element is therefore, at each result
  index, the supremum over the window's positions of the operand read at the position (the least element where the
  position falls in the padding). Suprema over a finite index set are invariant under a bijection of the index set, a
  supremum over the positions of a window with one leading position is a double supremum over the two remaining
  coordinates, and a supremum over `Fin n` of a function of the value is the supremum over `Finset.range n`.
  Last, a sum over a rank-3 index set is the triple sum over the coordinates.
-/
import Idealize.ShloMosaic.PureOps.Contract
import Idealize.ShloMosaic.Lib.ValueIdx

noncomputable section

namespace Cert.LibWindowMax

open Idealize.ShloMosaic Idealize.ShloMosaic.ValueIdx

/-! ## Folds of `max` and suprema -/

/-- A left fold of `max` over a list: the starting value joined with the supremum of the entries. -/
theorem foldl_max_eq_sup {ι α : Type*} [DecidableEq ι] [LinearOrder α] [OrderBot α] (g : ι → α) :
    ∀ (l : List ι) (init : α), l.foldl (fun r n => max r (g n)) init = max init (l.toFinset.sup g)
  | [], init => by simp
  | a :: l, init => by
    rw [List.foldl_cons, foldl_max_eq_sup g l, List.toFinset_cons, Finset.sup_insert, max_assoc]

/-- A supremum over a whole finite type is invariant under a bijection of the type. -/
theorem sup_univ_comp_equiv {ι κ α : Type*} [Fintype ι] [Fintype κ] [SemilatticeSup α] [OrderBot α] (e : ι ≃ κ)
    (g : κ → α) : (Finset.univ : Finset ι).sup (fun n => g (e n)) = (Finset.univ : Finset κ).sup g := by
  rw [← Finset.map_univ_equiv e, Finset.sup_map]
  rfl

/-- A supremum over `Fin n` of a function of the value is the supremum over the first `n` naturals. -/
theorem sup_univ_fin_eq_sup_range {α : Type*} [SemilatticeSup α] [OrderBot α] (n : ℕ) (f : ℕ → α) :
    (Finset.univ : Finset (Fin n)).sup (fun k => f k.val) = (Finset.range n).sup f := by
  apply le_antisymm
  · exact Finset.sup_le fun k _ => Finset.le_sup (f := f) (Finset.mem_range.2 k.isLt)
  · exact Finset.sup_le fun k hk =>
      Finset.le_sup (f := fun k : Fin n => f k.val) (Finset.mem_univ ⟨k, Finset.mem_range.1 hk⟩)

/-! ## `reduce_window` with a `max` body -/

/-- What window position `q` contributes to result element `j`: the operand where the position lies inside it, `v` in
    the padding. -/
def winElt {α : Type} {s t : Shape} (window strides lo : Fin s.rank → Nat) (hr : t.rank = s.rank) (x : s.Idx → α)
    (v : α) (j : t.Idx) (q : (⟨s.rank, window⟩ : Shape).Idx) : α :=
  if hin : ∀ a, lo a ≤ (j (a.cast hr.symm)).val * strides a + (q a).val
      ∧ (j (a.cast hr.symm)).val * strides a + (q a).val - lo a < s.size a
  then x (fun a => ⟨(j (a.cast hr.symm)).val * strides a + (q a).val - lo a, (hin a).2⟩) else v

/-- `reduce_window` at a result index is the left fold of its body over the window's positions in row-major order. -/
theorem reduceWindow_eq_foldl {α : Type} {s t u : Shape} (f : α → α → α) (window strides lo hi : Fin s.rank → Nat)
    (x : s.Idx → α) (init : u.Idx → α) (h : s.ReduceWindows window strides lo hi t) (hu : 0 < u.numel) (j : t.Idx) :
    Host.reduceWindow f window strides lo hi x init h hu j
      = (List.finRange (⟨s.rank, window⟩ : Shape).numel).foldl (fun r n =>
          f r (winElt window strides lo h.1 x (init (Shape.Idx.first hu)) j
            ((⟨s.rank, window⟩ : Shape).rowMajor.symm n))) (init (Shape.Idx.first hu)) := rfl

/-- With a `max` body and the least element as initial value, `reduce_window` at a result index is the supremum of the
    window's contributions. -/
theorem reduceWindow_max_eq_sup {α : Type} [LinearOrder α] [OrderBot α] {s t u : Shape}
    (window strides lo hi : Fin s.rank → Nat) (x : s.Idx → α) (init : u.Idx → α)
    (h : s.ReduceWindows window strides lo hi t) (hu : 0 < u.numel) (hv : init (Shape.Idx.first hu) = ⊥) (j : t.Idx) :
    Host.reduceWindow max window strides lo hi x init h hu j
      = (Finset.univ : Finset (⟨s.rank, window⟩ : Shape).Idx).sup (winElt window strides lo h.1 x ⊥ j) := by
  rw [reduceWindow_eq_foldl, hv,
    foldl_max_eq_sup (fun n => winElt window strides lo h.1 x ⊥ j ((⟨s.rank, window⟩ : Shape).rowMajor.symm n)),
    List.toFinset_finRange, max_eq_right bot_le]
  exact sup_univ_comp_equiv (⟨s.rank, window⟩ : Shape).rowMajor.symm (winElt window strides lo h.1 x ⊥ j)

/-! ## Rank-3 index sets by coordinates -/

/-- The positions of a window with one leading position are the pairs of the two other coordinates. -/
def winEquiv (n1 n2 : Nat) : Fin n1 × Fin n2 ≃ (⟨3, ![1, n1, n2]⟩ : Shape).Idx where
  toFun p := ix3 (0 : Fin 1) p.1 p.2
  invFun q := (q 1, q 2)
  left_inv _ := rfl
  right_inv q := by
    funext a
    match a with
    | ⟨0, _⟩ => exact Subsingleton.elim (α := Fin 1) _ _
    | ⟨1, _⟩ => rfl
    | ⟨2, _⟩ => rfl

/-- A supremum over such a window's positions is the double supremum over the two coordinates. -/
theorem sup_window_positions {α : Type*} [SemilatticeSup α] [OrderBot α] (n1 n2 : Nat)
    (g : (⟨3, ![1, n1, n2]⟩ : Shape).Idx → α) :
    (Finset.univ : Finset (⟨3, ![1, n1, n2]⟩ : Shape).Idx).sup g
      = (Finset.univ : Finset (Fin n1)).sup fun a => (Finset.univ : Finset (Fin n2)).sup fun b =>
          g (ix3 (0 : Fin 1) a b) := by
  rw [← sup_univ_comp_equiv (winEquiv n1 n2) g, ← Finset.univ_product_univ, Finset.sup_product_left]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibWindowMax

end
-- ==== Proof.RefSide.lean ====
/-
  The reference program's sum, read back as the specification's `total`.

  Stage by stage: the reduction over the channel axis is the channel minimum of a batch's slab; the window maximum over
  35 × 35 positions, padded by 17 on each side of the two image axes, is `pooled` of the image at the batch; the
  absolute difference of the two pooled images is `pixDiff`; and the sum over every batch and pixel, regrouped as a
  triple sum, is `total`.
-/
import proofs.«163365_j18872086298967_1_alg».proof.Proof.Spec
import proofs.«163365_j18872086298967_1_alg».proof.Proof.Gen.ReferenceIdeal.Read
import proofs.«163365_j18872086298967_1_alg».proof.Proof.LibWindowMax
import Idealize.ShloMosaic.PureOps.Reduce

noncomputable section

namespace Cert.RefSide

open Idealize.ShloMosaic Idealize.ShloMosaic.ValueIdx Cert.ReferenceIdeal Cert.ReferenceIdeal.Gen
  Cert.ReferenceIdeal.Read Cert.LibWindowMax Cert.Pool

/-! ## The channel minimum -/

/-- The channel axis dropped from a [16, 3, 512, 512] index set leaves [16, 512, 512]. -/
theorem reduces_chan : S16x3x512x512.Reduces [1] S16x512x512 := by decide

/-- A [16, 512, 512] index with channel `k` put back on axis 1. -/
theorem lift_ix4 (b : Fin 16) (h w : Fin 512) (k : Fin (S16x3x512x512.size 1)) :
    reduces_chan.lift (ix3 b h w) k = ix4 b (⟨k.val, k.isLt⟩ : Fin 3) h w := by
  funext c; apply Fin.ext
  fin_cases c <;> rfl

/-- The reduction over the channel axis with a minimum body from +∞, read at (b, h, w): the channel minimum of batch
    `b`'s slab at pixel (h, w). -/
theorem reduceMin_apply (X : (⟨S16x3x512x512, .f32⟩ : BufTy).Contents (Elt Ideal)) (b : Fin 16) (h w : Fin 512) :
    val_main_v0 (F := Ideal) X (ix3 b h w) = chanMin (slab X b) (ix2 h w) := by
  unfold val_main_v0
  refine (Host.reduce_eq_fold_single (α := Ideal .f32) (s := S16x3x512x512) (t := S16x512x512) (a := 1)
    FloatOps.minimumf X (val_main_cst (F := Ideal)) reducesTo_S16x3x512x512_S16x512x512_d1 reduces_chan h_S_
    (ix3 b h w)).trans ?_
  have hf : (X ∘ reduces_chan.lift (ix3 b h w)) = fun k : Fin 3 => X (ix4 b k h w) :=
    funext fun k => congrArg X (lift_ix4 b h w k)
  exact congrArg (fun f => Finset.fold min (Ideal.ofBits .f32 0x7F800000#32) f (Finset.univ : Finset (Fin 3))) hf

/-- The same for the second argument's stage. -/
theorem reduceMin_apply' (Y : (⟨S16x3x512x512, .f32⟩ : BufTy).Contents (Elt Ideal)) (b : Fin 16) (h w : Fin 512) :
    val_main_v3 (F := Ideal) Y (ix3 b h w) = chanMin (slab Y b) (ix2 h w) := reduceMin_apply Y b h w

/-! ## The window maximum -/

/-- What window position (0, dv, dh) contributes at (b, h, w): the framed image of batch `b` at row `h + dv` and
    column `w + dh`. -/
theorem winElt_eq_padded (x : S16x512x512.Idx → EReal) (hr : S16x512x512.rank = S16x512x512.rank) (b : Fin 16)
    (h w : Fin 512) (dv dh : Fin 35) :
    winElt (s := S16x512x512) (t := S16x512x512) ![1, 35, 35] ![1, 1, 1] ![0, 17, 17] hr x ⊥ (ix3 b h w)
        (ix3 (0 : Fin 1) dv dh)
      = padded (fun j => x (ix3 b (j 0) (j 1))) (h.val + dv.val) (w.val + dh.val) := by
  unfold winElt padded img2
  by_cases hc : (17 ≤ h.val + dv.val ∧ h.val + dv.val - 17 < 512) ∧ (17 ≤ w.val + dh.val ∧ w.val + dh.val - 17 < 512)
  · have hin : ∀ a : Fin 3, (![0, 17, 17] : Fin 3 → Nat) a
          ≤ ((ix3 b h w) (a.cast hr.symm)).val * (![1, 1, 1] : Fin 3 → Nat) a + ((ix3 (0 : Fin 1) dv dh) a).val
        ∧ ((ix3 b h w) (a.cast hr.symm)).val * (![1, 1, 1] : Fin 3 → Nat) a + ((ix3 (0 : Fin 1) dv dh) a).val
          - (![0, 17, 17] : Fin 3 → Nat) a < S16x512x512.size a := by
      intro a
      match a with
      | ⟨0, _⟩ =>
        show 0 ≤ b.val * 1 + 0 ∧ b.val * 1 + 0 - 0 < 16
        have := b.isLt; omega
      | ⟨1, _⟩ =>
        show 17 ≤ h.val * 1 + dv.val ∧ h.val * 1 + dv.val - 17 < 512
        omega
      | ⟨2, _⟩ =>
        show 17 ≤ w.val * 1 + dh.val ∧ w.val * 1 + dh.val - 17 < 512
        omega
    rw [dif_pos hin, if_pos ⟨hc.1.1, hc.2.1⟩, dif_pos ⟨hc.1.2, hc.2.2⟩]
    refine congrArg x ?_
    funext a
    match a with
    | ⟨0, _⟩ => exact Fin.ext (show b.val * 1 + 0 - 0 = b.val by omega)
    | ⟨1, _⟩ => exact Fin.ext (show h.val * 1 + dv.val - 17 = h.val + dv.val - 17 by omega)
    | ⟨2, _⟩ => exact Fin.ext (show w.val * 1 + dh.val - 17 = w.val + dh.val - 17 by omega)
  · rw [dif_neg]
    · split_ifs with h1 h2
      · exact absurd ⟨⟨h1.1, h2.1⟩, ⟨h1.2, h2.2⟩⟩ hc
      · rfl
      · rfl
    · intro hin
      have h1' := hin (⟨1, by decide⟩ : Fin 3)
      have h2' := hin (⟨2, by decide⟩ : Fin 3)
      have h1 : 17 ≤ h.val * 1 + dv.val ∧ h.val * 1 + dv.val - 17 < 512 := h1'
      have h2 : 17 ≤ w.val * 1 + dh.val ∧ w.val * 1 + dh.val - 17 < 512 := h2'
      exact hc ⟨⟨by omega, by omega⟩, ⟨by omega, by omega⟩⟩

/-- The window maximum from −∞ over 35 × 35 positions, padded by 17 on each side of the two image axes, read at
    (b, h, w): `pooled` of the image at batch `b`. -/
theorem reduceWindowMax_apply (x : (⟨S16x512x512, .f32⟩ : BufTy).Contents (Elt Ideal))
    (init : (⟨S_, .f32⟩ : BufTy).Contents (Elt Ideal)) (hv : init (Shape.Idx.first h_S_) = ⊥) (b : Fin 16)
    (h w : Fin 512) :
    Host.reduceWindow (s := S16x512x512) (t := S16x512x512) (u := S_) (FloatOps.maximumf (F := Ideal) (φ := .f32))
        ![1, 35, 35] ![1, 1, 1] ![0, 17, 17] ![0, 17, 17] x init
        reduceWindows_S16x512x512_S16x512x512_w1s1p0_0_w35s1p17_17_w35s1p17_17 h_S_ (ix3 b h w)
      = pooled (fun j => x (ix3 b (j 0) (j 1))) h.val w.val := by
  refine (reduceWindow_max_eq_sup (α := EReal) (s := S16x512x512) (t := S16x512x512) (u := S_) ![1, 35, 35] ![1, 1, 1]
    ![0, 17, 17] ![0, 17, 17] x init reduceWindows_S16x512x512_S16x512x512_w1s1p0_0_w35s1p17_17_w35s1p17_17 h_S_ hv
    (ix3 b h w)).trans ?_
  refine (sup_window_positions 35 35 _).trans ?_
  unfold pooled
  rw [← sup_univ_fin_eq_sup_range 35]
  refine Finset.sup_congr rfl fun dv _ => ?_
  beta_reduce
  rw [← sup_univ_fin_eq_sup_range 35]
  refine Finset.sup_congr rfl fun dh _ => ?_
  exact winElt_eq_padded x _ b h w dv dh

/-- The initial value of the first window maximum is −∞. -/
theorem init_v1 : val_main_v1 (F := Ideal) (Shape.Idx.first h_S_) = ⊥ := by
  rw [val_main_v1_apply, val_main_cst_0_apply]
  show Ideal.ofBits .f32 0xFF800000#32 = ⊥
  simp [Ideal.ofBits, Ideal.ieee]

/-- The initial value of the second window maximum is −∞. -/
theorem init_v4 : val_main_v4 (F := Ideal) (Shape.Idx.first h_S_) = ⊥ := by
  rw [val_main_v4_apply, val_main_cst_2_apply]
  show Ideal.ofBits .f32 0xFF800000#32 = ⊥
  simp [Ideal.ofBits, Ideal.ieee]

/-! ## The stages at an index -/

/-- The first reduced array at batch `b`, as an image: the channel minimum of the batch's slab. -/
theorem v0_slab (X : (⟨S16x3x512x512, .f32⟩ : BufTy).Contents (Elt Ideal)) (b : Fin 16) :
    (fun j : (⟨2, ![512, 512]⟩ : Shape).Idx => val_main_v0 (F := Ideal) X (ix3 b (j 0) (j 1))) = chanMin (slab X b) := by
  funext j
  refine (reduceMin_apply X b (j 0) (j 1)).trans ?_
  exact congrArg (chanMin (slab X b)) (eq_ix2 j).symm

/-- The second reduced array at batch `b`, likewise. -/
theorem v3_slab (Y : (⟨S16x3x512x512, .f32⟩ : BufTy).Contents (Elt Ideal)) (b : Fin 16) :
    (fun j : (⟨2, ![512, 512]⟩ : Shape).Idx => val_main_v3 (F := Ideal) Y (ix3 b (j 0) (j 1))) = chanMin (slab Y b) :=
  v0_slab Y b

/-- The first window maximum at (b, h, w): the pooled channel minimum of batch `b` of the first argument. -/
theorem v2_apply (X : (⟨S16x3x512x512, .f32⟩ : BufTy).Contents (Elt Ideal)) (b : Fin 16) (h w : Fin 512) :
    val_main_v2 (F := Ideal) X (ix3 b h w) = pooled (chanMin (slab X b)) h.val w.val := by
  unfold val_main_v2
  refine (reduceWindowMax_apply (val_main_v0 (F := Ideal) X) (val_main_v1 (F := Ideal)) init_v1 b h w).trans ?_
  exact congrArg (fun f => pooled f h.val w.val) (v0_slab X b)

/-- The second window maximum at (b, h, w): the same of the second argument. -/
theorem v5_apply (Y : (⟨S16x3x512x512, .f32⟩ : BufTy).Contents (Elt Ideal)) (b : Fin 16) (h w : Fin 512) :
    val_main_v5 (F := Ideal) Y (ix3 b h w) = pooled (chanMin (slab Y b)) h.val w.val := by
  unfold val_main_v5
  refine (reduceWindowMax_apply (val_main_v3 (F := Ideal) Y) (val_main_v4 (F := Ideal)) init_v4 b h w).trans ?_
  exact congrArg (fun f => pooled f h.val w.val) (v3_slab Y b)

/-- The absolute difference at (b, h, w): the larger of the difference of the pooled values and its negative. -/
theorem v7_apply (X Y : (⟨S16x3x512x512, .f32⟩ : BufTy).Contents (Elt Ideal)) (b : Fin 16) (h w : Fin 512) :
    val_main_v7 (F := Ideal) X Y (ix3 b h w) = pixDiff (slab X b) (slab Y b) h w := by
  rw [val_main_v7_apply, val_main_v6_apply, v2_apply, v5_apply]
  rfl

/-! ## The sum -/

/-- The reference program's sum is the specification's total: the initial zero drops, and the sum over every index
    of the [16, 512, 512] array is the sum over batches, rows and columns. -/
theorem total_eq (X Y : (⟨S16x3x512x512, .f32⟩ : BufTy).Contents (Elt Ideal)) (i : S_.Idx) :
    val_main_v8 (F := Ideal) X Y i = total X Y := by
  rw [val_main_v8_apply, val_main_cst_3_apply]
  have h0 : FloatOps.ofBits (F := Ideal) .f32 0x00000000#32 = 0 := Ideal.ofBits_zero_f32
  rw [h0, zero_add]
  refine (sum_idx3 _).trans ?_
  unfold total batchTotal imgTotal
  refine Finset.sum_congr rfl fun b _ => Finset.sum_congr rfl fun h _ => Finset.sum_congr rfl fun w _ => ?_
  exact v7_apply X Y b h w

end Cert.RefSide

end
-- ==== Proof.lean ====
/-
  The certificate of `Cert.Claim` (Defs.lean): the three frames, the idealization (nothing was rewritten) and the
  equality of the idealized kernel and the idealized reference over the extended reals.

  Both programs return  1 / (1 + exp (−T / 2²²))  where T is the sum, over the sixteen batches and every pixel, of
  |P(a) − P(b)|: a and b are the channel minima of the two arguments' images and P is the 35 × 35 window maximum of an
  image framed by −∞ (Proof/Spec.lean). The reference computes P with one windowed reduction and T with one sum
  (Proof/RefSide.lean, over Proof/LibWindowMax.lean). The kernel computes P separably — the maximum of 35 consecutive
  entries along each row, then along each column, through two scratch images framed by −∞ (Proof/Framed.lean,
  Proof/Passes.lean, over Proof/LibMaxChain.lean) —, adds each batch's total into row 0 of its group's output block over
  the group's eight grid points (Proof/Body.lean, Proof/OutsAt.lean), and the host sums column 0 of the two groups' blocks
  (Proof/KernelRun.lean). Maxima and sums of extended reals may be regrouped and reordered freely, so the two agree
  for all inputs; the finiteness precondition is not used.
-/
import proofs.«163365_j18872086298967_1_alg».proof.Defs
import proofs.«163365_j18872086298967_1_alg».proof.Proof.Gen.Kernel
import proofs.«163365_j18872086298967_1_alg».proof.Proof.Gen.Kernel.Skeleton
import proofs.«163365_j18872086298967_1_alg».proof.Proof.Gen.Kernel.Launch
import proofs.«163365_j18872086298967_1_alg».proof.Proof.Gen.Kernel.Points
import proofs.«163365_j18872086298967_1_alg».proof.Proof.Gen.Kernel.Frame
import proofs.«163365_j18872086298967_1_alg».proof.Proof.Gen.KernelIdeal
import proofs.«163365_j18872086298967_1_alg».proof.Proof.Gen.KernelIdeal.Skeleton
import proofs.«163365_j18872086298967_1_alg».proof.Proof.Gen.KernelIdeal.Launch
import proofs.«163365_j18872086298967_1_alg».proof.Proof.Gen.KernelIdeal.Points
import proofs.«163365_j18872086298967_1_alg».proof.Proof.Gen.KernelIdeal.Frame
import proofs.«163365_j18872086298967_1_alg».proof.Proof.Gen.ReferenceIdeal
import proofs.«163365_j18872086298967_1_alg».proof.Proof.Gen.ReferenceIdeal.Run
import proofs.«163365_j18872086298967_1_alg».proof.Proof.Gen.ReferenceIdeal.Read
import proofs.«163365_j18872086298967_1_alg».proof.Proof.Gen.Pre_finite_inputs
import proofs.«163365_j18872086298967_1_alg».proof.Proof.KernelRun
import proofs.«163365_j18872086298967_1_alg».proof.Proof.RefSide
import Idealize.ShloMosaic.Adequacy
import Idealize.ShloMosaic.Init

noncomputable section

namespace Cert.Proof

open Idealize.ShloMosaic Idealize.SL.Sem

/-- The reference's result is the common value: its last five operations are the closing scalar operations applied to
    its sum, and its sum is the specification's total. -/
theorem ref_result (X Y : (⟨Cert.ReferenceIdeal.S16x3x512x512, .f32⟩ : BufTy).Contents (Elt Ideal)) :
    Cert.ReferenceIdeal.Read.val_main_v13 (F := Ideal) X Y = Cert.Pool.result X Y := by
  have e : Cert.ReferenceIdeal.Read.val_main_v8 (F := Ideal) X Y = fun _ => Cert.Pool.total X Y :=
    funext fun i => Cert.RefSide.total_eq X Y i
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9
  rw [e]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values both programs end at the common value of arguments that agree. -/
theorem algebraic : Cert.algebraic_KernelIdeal_ReferenceIdeal := by
  intro m ρ m' ρ' _ hagree
  refine ⟨fun c => Cert.Pool.result (Cert.KernelSide.argA m c) (Cert.KernelSide.argB m c), Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  exact ref_result _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
